-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S100000x64 .f32) (main_arg1 : IVec S2x1200000 32) (main_arg2 : FVec F S64x64 .f32) (main_arg3 : FVec F S64 .f32) (main_arg4 : FVec F S64 .f32) (main_arg5 : FVec F S64 .f32) (main_arg6 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1200000x65 : Shape := ⟨2, ![1200000, 65]⟩
abbrev S100000x65 : Shape := ⟨2, ![100000, 65]⟩
abbrev S100000x1 : Shape := ⟨2, ![100000, 1]⟩
abbrev S100000 : Shape := ⟨1, ![100000]⟩
abbrev S1x64 : Shape := ⟨2, ![1, 64]⟩
abbrev S25x2x64 : Shape := ⟨3, ![25, 2, 64]⟩
abbrev S4000x64 : Shape := ⟨2, ![4000, 64]⟩
abbrev S4000x1 : Shape := ⟨2, ![4000, 1]⟩
abbrev S1x2x64 : Shape := ⟨3, ![1, 2, 64]⟩
abbrev S1x1x64 : Shape := ⟨3, ![1, 1, 64]⟩
abbrev S2x64 : Shape := ⟨2, ![2, 64]⟩

abbrev nBuf : Space → Nat
  | .hbm => 68
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .i32⟩
  | .hbm, ⟨12, _⟩ => ⟨S1200000, .i32⟩
  | .hbm, ⟨13, _⟩ => ⟨S1200000, .i1⟩
  | .hbm, ⟨14, _⟩ => ⟨S_, .i32⟩
  | .hbm, ⟨15, _⟩ => ⟨S1200000, .i32⟩
  | .hbm, ⟨16, _⟩ => ⟨S1200000, .i32⟩
  | .hbm, ⟨17, _⟩ => ⟨S1200000, .i32⟩
  | .hbm, ⟨18, _⟩ => ⟨S1200000x1, .i32⟩
  | .hbm, ⟨19, _⟩ => ⟨S1200000x64, .f32⟩
  | .hbm, ⟨20, _⟩ => ⟨S_, .f32⟩
  | .hbm, ⟨21, _⟩ => ⟨S1200000x1, .f32⟩
  | .hbm, ⟨22, _⟩ => ⟨S1200000x65, .f32⟩
  | .hbm, ⟨23, _⟩ => ⟨S_, .f32⟩
  | .hbm, ⟨24, _⟩ => ⟨S100000x65, .f32⟩
  | .hbm, ⟨25, _⟩ => ⟨S1200000x1, .i32⟩
  | .hbm, ⟨26, _⟩ => ⟨S100000x65, .f32⟩
  | .hbm, ⟨27, _⟩ => ⟨S100000x64, .f32⟩
  | .hbm, ⟨28, _⟩ => ⟨S100000x1, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S64x64, .f32⟩
  | .hbm, ⟨38, _⟩ => ⟨S64x64, .bf16⟩
  | .hbm, ⟨39, _⟩ => ⟨S1x64, .f32⟩
  | .hbm, ⟨40, _⟩ => ⟨S100000x64, .f32⟩
  | .hbm, ⟨41, _⟩ => ⟨S25x2x64, .f32⟩
  | .hbm, ⟨42, _⟩ => ⟨S_, .f32⟩
  | .hbm, ⟨43, _⟩ => ⟨S2x64, .f32⟩
  | .hbm, ⟨44, _⟩ => ⟨S1x64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S1x64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S1x64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S1x64, .f32⟩
  | .hbm, ⟨66, _⟩ => ⟨S64x64, .bf16⟩
  | .hbm, ⟨67, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S64x64, .bf16⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S1x2x64, .f32⟩
  | .local _ .vmem, ⟨11, _⟩ => ⟨S1x2x64, .f32⟩
  | .local _ .vmem, ⟨12, _⟩ => ⟨S4000x64, .f32⟩
  | .local _ .vmem, ⟨13, _⟩ => ⟨S4000x64, .f32⟩
  | .local _ .vmem, ⟨14, _⟩ => ⟨S1x64, .f32⟩
  | .local _ .vmem, ⟨15, _⟩ => ⟨S1x64, .f32⟩
  | .local _ .vmem, ⟨16, _⟩ => ⟨S64x64, .bf16⟩
  | .local _ .vmem, ⟨17, _⟩ => ⟨S4000x64, .f32⟩
  | .local _ .vmem, ⟨18, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  concatenates_S1200000x64_S1200000x1_S1200000x65_d1 : Shape.Concatenates [S1200000x64, S1200000x1] S1200000x65 1
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  shapeCasts_S100000x1_S100000 : S100000x1.ShapeCasts S100000
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  bitsLt_bf16_f32 : FTy.bits .bf16 < FTy.bits .f32
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S64 : S4000x64.Reduces [0] S64
  shapeCasts_S1x64_S64 : S1x64.ShapeCasts S64
  inb_S1x2x64_S1x1x64_0_0_0 : ∀ a, (![0, 0, 0] : Fin 3 → Nat) a + S1x1x64.size a ≤ S1x2x64.size a
  h_S1x1x64 : 0 < S1x1x64.numel
  shapeCasts_S1x1x64_S64 : S1x1x64.ShapeCasts S64
  shapeCasts_S64_S1x1x64 : S64.ShapeCasts S1x1x64
  inb_S1x2x64_S1x1x64_0_1_0 : ∀ a, (![0, 1, 0] : Fin 3 → Nat) a + S1x1x64.size a ≤ S1x2x64.size a
  reducesTo_S25x2x64_S2x64_d0 : S25x2x64.ReducesTo [0] S2x64
  h_S_ : 0 < S_.numel
  slices_S2x64_S1x64_0_0 : S2x64.Slices ![0, 0] S1x64
  bcast_S_S64 : S_.BroadcastsInDim S64 (![] : Fin 0 → Fin S64.rank)
  slices_S2x64_S1x64_1_0 : S2x64.Slices ![1, 0] S1x64
  gather_S100000x64_S1200000x1_S1200000x64_1_0_n_n_0_1_164_wf : GatherDims.WF S100000x64 S1200000x1 S1200000x64 [1] [0] [] [0] [] 1 ![1, 64]
  scatter_S100000x65_S1200000x1_S1200000x65_1_0_0_1_wf : ScatterDims.WF S100000x65 S1200000x1 S1200000x65 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x64.size a ≤ S25x2x64.size a
  hwx0_6 : ∀ i : grid0.Coords, EltTy.bits .f32 = 32 ∨ (Rect.block (s := S25x2x64) S1x2x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x65_S1200000x1_S1200000x65_1_0_0_1 : ScatterDims S100000x65 S1200000x1 S1200000x65 where
  updateWindowDims := [1]
  insertedWindowDims := [0]
  scatterDimsToOperandDims := [0]
  indexVectorDim := 1
  wf := scatter_S100000x65_S1200000x1_S1200000x65_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27_0) S4000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27_1) S1x2x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27_0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .i32⟩
  | .hbm, ⟨12, _⟩ => ⟨S1200000, .i32⟩
  | .hbm, ⟨13, _⟩ => ⟨S1200000, .i1⟩
  | .hbm, ⟨14, _⟩ => ⟨S_, .i32⟩
  | .hbm, ⟨15, _⟩ => ⟨S1200000, .i32⟩
  | .hbm, ⟨16, _⟩ => ⟨S1200000, .i32⟩
  | .hbm, ⟨17, _⟩ => ⟨S1200000, .i32⟩
  | .hbm, ⟨18, _⟩ => ⟨S1200000x1, .i32⟩
  | .hbm, ⟨19, _⟩ => ⟨S1200000x64, .f32⟩
  | .hbm, ⟨20, _⟩ => ⟨S_, .f32⟩
  | .hbm, ⟨21, _⟩ => ⟨S100000x64, .f32⟩
  | .hbm, ⟨22, _⟩ => ⟨S1200000x1, .i32⟩
  | .hbm, ⟨23, _⟩ => ⟨S100000x64, .f32⟩
  | .hbm, ⟨24, _⟩ => ⟨S_, .f32⟩
  | .hbm, ⟨25, _⟩ => ⟨S1200000, .f32⟩
  | .hbm, ⟨26, _⟩ => ⟨S_, .f32⟩
  | .hbm, ⟨27, _⟩ => ⟨S100000, .f32⟩
  | .hbm, ⟨28, _⟩ => ⟨S1200000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run, with its result named.

  @main is four segments: host operations, the first launch (the linear stage and the per-block
  column sums), host operations (the batch statistics folded into one scale and one shift per column),
  the second launch (normalise and gate).  The launch of the segments gives the contents of every
  buffer at the last segment's exit; read there, the result buffer holds what the second launch's
  write-backs leave and the seven argument arrays what they held at the start.
-/
import proofs.«123687_j59407987638626_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the
    contents the fold of the four segments gives it, and the arguments end as they began. -/
theorem run_out : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.KernelBlocks.lean ====
/-
  The two kernel bodies' arithmetic on one block, entry by entry, on the extended reals.

  A block is 4000 consecutive rows.  The first body takes a block of the root features `x`, of the
  summed messages `m` and of the inverse degrees `d` (one per row), the transposed weights `w` and
  the bias `b` (one per column), and computes
      lin[y,c] = Σ_k (x[y,k] + m[y,k]·d[y]) · w[k,c] + b[c],
  the block's column sums Σ_y lin[y,c] and its column sums of squares Σ_y lin[y,c]².
  The second takes a block of `lin`, one scale and one shift per column and the gate matrix `g`:
      out[y,c] = logistic(Σ_k (lin[y,k]·scale[k] + shift[k]) · g[k,c]) · (lin[y,c]·scale[c] + shift[c]).
  A change of float format is the identity here, and a matrix product into a zero accumulator is the
  plain sum of products.
-/
import proofs.«123687_j59407987638626_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- A [4000,64] by [64,64] product into a zero accumulator, at row `y` and column `c`: the sum over the shared axis. -/
theorem matmul_at (l : FVec Ideal S4000x64 .bf16) (r : FVec Ideal S64x64 .bf16) (y : Fin 4000) (c : Fin 64) :
    matmul dot_S4000x64_S64x64_S4000x64_1_0_0_1_n_n none l r (constant S4000x64 .f32 0x00000000#32) (ix2 y c)
      = ∑ k : Fin 64, l (ix2 y k) * r (ix2 k c) := by
  simp only [matmul]
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 y c) ((contrEquiv1 dot_S4000x64_S64x64_S4000x64_1_0_0_1_n_n 64 rfl rfl).symm k) = ix2 y k :=
    funext fun a => Fin.ext (by
      match a with
      | ⟨0, _⟩ =>
        show (dot_S4000x64_S64x64_S4000x64_1_0_0_1_n_n.lhsIdx (ix2 y c) _ 0).val = y.val
        unfold DotDims.lhsIdx
        rw [dif_neg (show ¬(0 : Fin S4000x64.rank) ∈ dot_S4000x64_S64x64_S4000x64_1_0_0_1_n_n.lhsBatch by decide),
          dif_pos (show (0 : Fin S4000x64.rank) ∈ dot_S4000x64_S64x64_S4000x64_1_0_0_1_n_n.lhsNonContracting by decide)]
        rfl
      | ⟨1, _⟩ => exact (dot_S4000x64_S64x64_S4000x64_1_0_0_1_n_n.lhsIdx_val_of_single rfl (ix2 y c) _).trans hk)
  have er : dot_S4000x64_S64x64_S4000x64_1_0_0_1_n_n.rhsIdx (ix2 y c) ((contrEquiv1 dot_S4000x64_S64x64_S4000x64_1_0_0_1_n_n 64 rfl rfl).symm k) = ix2 k c :=
    funext fun a => Fin.ext (by
      match a with
      | ⟨0, _⟩ => exact (dot_S4000x64_S64x64_S4000x64_1_0_0_1_n_n.rhsIdx_val_of_single rfl (ix2 y c) _).trans hk
      | ⟨1, _⟩ =>
        show (dot_S4000x64_S64x64_S4000x64_1_0_0_1_n_n.rhsIdx (ix2 y c) _ 1).val = c.val
        unfold DotDims.rhsIdx
        rw [dif_neg (show ¬(1 : Fin S64x64.rank) ∈ dot_S4000x64_S64x64_S4000x64_1_0_0_1_n_n.rhsBatch by decide),
          dif_pos (show (1 : Fin S64x64.rank) ∈ dot_S4000x64_S64x64_S4000x64_1_0_0_1_n_n.rhsNonContracting by decide)]
        rfl)
  rw [el, er]

/-- A row of 64 repeated down 4000 rows. -/
theorem rowBroadcast_at {α : Type} (v : S1x64.Idx → α) (y : Fin 4000) (c : Fin 64) :
    broadcastTo S4000x64 v broadcasts_S1x64_S4000x64 (ix2 y c) = v (ix2 (0 : Fin 1) c) :=
  broadcastTo_apply v broadcasts_S1x64_S4000x64 (ix2 y c) (ix2 (0 : Fin 1) c) (fun a => by
    match a with
    | ⟨0, _⟩ => rfl
    | ⟨1, _⟩ => rfl)

/-- A column of 4000 repeated across 64 columns. -/
theorem colBroadcast_at {α : Type} (v : S4000x1.Idx → α) (y : Fin 4000) (c : Fin 64) :
    broadcastTo S4000x64 v broadcasts_S4000x1_S4000x64 (ix2 y c) = v (ix2 y (0 : Fin 1)) :=
  broadcastTo_apply v broadcasts_S4000x1_S4000x64 (ix2 y c) (ix2 y (0 : Fin 1)) (fun a => by
    match a with
    | ⟨0, _⟩ => rfl
    | ⟨1, _⟩ => rfl)

/-- The first body's linear stage on a block, at row `y` and column `c`. -/
theorem lin_block (x0 x1 : Vec Ideal S4000x64 .f32) (x2 : Vec Ideal S4000x1 .f32) (x3 : Vec Ideal S64x64 .bf16) (x4 : Vec Ideal S1x64 .f32)
    (y : Fin 4000) (c : Fin 64) :
    k0_pay1 (F := Ideal) x0 x1 x2 x3 x4 (ix2 y c)
      = (∑ k : Fin 64, (x0 (ix2 y k) + x1 (ix2 y k) * x2 (ix2 y (0 : Fin 1))) * x3 (ix2 k c)) + x4 (ix2 (0 : Fin 1) c) := by
  unfold k0_pay1
  rw [addf_apply, matmul_at, rowBroadcast_at]
  simp only [shapeCast_self, truncf_apply, addf_apply, mulf_apply, colBroadcast_at]

end Cert.KernelIdeal.Hand

end
-- ==== Proof.Spec.lean ====
/-
  The mathematics of this certificate, with no program in sight.

  A graph layer over N = 100000 nodes of D = 64 features.  From the node features `x`, the summed
  incoming messages `M` (an N × D array) and the in-degrees `Dg` (length N):
    agg[r,k]  = M[r,k] / max(Dg[r], 1)                           the mean of the incoming messages
    h[r,c]    = Σ_k (x[r,k] + agg[r,k]) · W[c,k] + b[c]           the linear map, `W` transposed
    μ[c]      = (Σ_r h[r,c]) / N,   v[c] = (Σ_r (h[r,c] − μ[c])²) / N
    y[r,c]    = (h[r,c] − μ[c]) · (v[c] + ε)^(−1/2) · γ[c] + β[c]  batch normalisation over the rows
    out[r,c]  = 1 / (1 + exp(−Σ_k y[r,k] · C[k,c])) · y[r,c]        the gate
  all on the extended reals.  `G` is this function; `bnK` is the same normalisation written the
  other way round — the rows' sums and sums of squares taken block by block (25 blocks of 4000 rows),
  the variance as the mean of squares less the squared mean, and the affine map folded into one scale
  and one shift per column.  That the two agree on finite data is proved elsewhere.
-/
import Idealize.ShloMosaic.PureOps.Ideal
import Idealize.ShloMosaic.Lib.ValueIdx

noncomputable section

namespace Cert.Spec

open Idealize.ShloMosaic Idealize.ShloMosaic.ValueIdx

abbrev SNxD : Shape := ⟨2, ![100000, 64]⟩
abbrev SDxD : Shape := ⟨2, ![64, 64]⟩
abbrev SD : Shape := ⟨1, ![64]⟩
abbrev SN : Shape := ⟨1, ![100000]⟩

/-- The row count `100000.0` as the programs spell it. -/
abbrev nLit : EReal := Ideal.ofBits .f32 0x47C35000#32
/-- The normalisation's `ε`, the single-precision number nearest `1e-5`. -/
abbrev epsLit : EReal := Ideal.ofBits .f32 0x3727C5AC#32
/-- `1.0`. -/
abbrev oneLit : EReal := Ideal.ofBits .f32 0x3F800000#32
/-- `+0.0`. -/
abbrev zeroLit : EReal := Ideal.ofBits .f32 0x00000000#32

/-- The mean of a node's incoming messages: their sum over the in-degree, the degree of an isolated node read as one. -/
def agg (M : SNxD.Idx → EReal) (Dg : SN.Idx → EReal) (r : Fin 100000) (k : Fin 64) : EReal :=
  Ideal.div (M (ix2 r k)) (max (Dg (ix1 r)) oneLit)

/-- A row through a linear map given by its transpose, plus a bias. -/
def lin (a : Fin 100000 → Fin 64 → EReal) (W : SDxD.Idx → EReal) (b : SD.Idx → EReal) (r : Fin 100000) (c : Fin 64) : EReal :=
  (∑ k : Fin 64, a r k * W (ix2 c k)) + b (ix1 c)

/-- The root feature plus the mean message. -/
def combine (x : SNxD.Idx → EReal) (M : SNxD.Idx → EReal) (Dg : SN.Idx → EReal) (r : Fin 100000) (k : Fin 64) : EReal :=
  x (ix2 r k) + agg M Dg r k

/-- A column's mean over the rows. -/
def mean (h : Fin 100000 → Fin 64 → EReal) (c : Fin 64) : EReal :=
  Ideal.div (zeroLit + ∑ r : Fin 100000, h r c) nLit

/-- A column's (biased) variance over the rows: the mean squared deviation. -/
def var (h : Fin 100000 → Fin 64 → EReal) (c : Fin 64) : EReal :=
  Ideal.div (zeroLit + ∑ r : Fin 100000, (h r c - mean h c) * (h r c - mean h c)) nLit

/-- Batch normalisation: centre, scale by the inverse standard deviation, then the learnt affine map. -/
def bn (h : Fin 100000 → Fin 64 → EReal) (γ β : SD.Idx → EReal) (r : Fin 100000) (c : Fin 64) : EReal :=
  (h r c - mean h c) * Ideal.rsqrt (var h c + epsLit) * γ (ix1 c) + β (ix1 c)

/-- The gate: the logistic function of a row's image under `C`, times the row. -/
def gated (y : Fin 100000 → Fin 64 → EReal) (C : SDxD.Idx → EReal) (r : Fin 100000) (c : Fin 64) : EReal :=
  Ideal.div oneLit (oneLit + Ideal.exp (-(∑ k : Fin 64, y r k * C (ix2 k c)))) * y r c

/-- The layer. -/
def G (x M : SNxD.Idx → EReal) (Dg : SN.Idx → EReal) (W : SDxD.Idx → EReal) (b γ β : SD.Idx → EReal) (C : SDxD.Idx → EReal) :
    SNxD.Idx → EReal :=
  fun i => gated (bn (lin (combine x M Dg) W b) γ β) C (i 0) (i 1)

/-! ## The same normalisation, block by block -/

/-- Row `y` of block `t`: the rows are cut into 25 consecutive blocks of 4000. -/
def row (t : Fin 25) (y : Fin 4000) : Fin 100000 := ⟨t.val * 4000 + y.val, by omega⟩

/-- A column's sum over the rows, each block summed first. -/
def sumK (h : Fin 100000 → Fin 64 → EReal) (c : Fin 64) : EReal :=
  zeroLit + ∑ t : Fin 25, ∑ y : Fin 4000, h (row t y) c

/-- A column's sum of squares over the rows, each block summed first. -/
def sqK (h : Fin 100000 → Fin 64 → EReal) (c : Fin 64) : EReal :=
  zeroLit + ∑ t : Fin 25, ∑ y : Fin 4000, h (row t y) c * h (row t y) c

def meanK (h : Fin 100000 → Fin 64 → EReal) (c : Fin 64) : EReal := Ideal.div (sumK h c) nLit

/-- The variance as the mean of the squares less the square of the mean. -/
def varK (h : Fin 100000 → Fin 64 → EReal) (c : Fin 64) : EReal := Ideal.div (sqK h c) nLit - meanK h c * meanK h c

def invStdK (h : Fin 100000 → Fin 64 → EReal) (c : Fin 64) : EReal := Ideal.rsqrt (varK h c + epsLit)

def scaleK (h : Fin 100000 → Fin 64 → EReal) (γ : SD.Idx → EReal) (c : Fin 64) : EReal := γ (ix1 c) * invStdK h c

def shiftK (h : Fin 100000 → Fin 64 → EReal) (γ β : SD.Idx → EReal) (c : Fin 64) : EReal :=
  β (ix1 c) - meanK h c * γ (ix1 c) * invStdK h c

/-- The normalisation as one multiply and one add per entry. -/
def bnK (h : Fin 100000 → Fin 64 → EReal) (γ β : SD.Idx → EReal) (r : Fin 100000) (c : Fin 64) : EReal :=
  h r c * scaleK h γ c + shiftK h γ β c

end Cert.Spec

end
-- ==== Proof.KernelArrays.lean ====
/-
  From blocks to arrays.

  Each launch runs its body at 25 grid points; point `t` works on rows 4000·t … 4000·t + 3999.  An
  input window whose index map follows the point reads those rows of its array; one whose index map
  is constant reads the whole (small) array every time.  What point `t` writes back is the body's
  result on those rows, so, the 25 blocks tiling the rows, the output arrays end as one function of
  the arrays the launch found, index by index.
-/
import proofs.«123687_j59407987638626_2_alg».proof.Proof.Gen.KernelIdeal.Frame
import proofs.«123687_j59407987638626_2_alg».proof.Proof.KernelBlocks
import proofs.«123687_j59407987638626_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point as a block number. -/
def blockOf0 (t : Fin cfg0.N) : Fin 25 := ⟨t.val, lt_of_lt_of_eq t.isLt N_0⟩

/-- The first launch's index maps, decided over the grid: windows 0, 1, 2, 5 and 6 are at block `t` on their row axis
    and block 0 elsewhere; windows 3 and 4 stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- Block `t` of the root features is rows 4000·t … of the array. -/
theorem iblk0_0_at (c : Dev nD) (t : Fin cfg0.N) (y : Fin 4000) (k : Fin 64) :
    (iblk0 V c 0 t : Vec Ideal S4000x64 .f32) (ix2 y k) = (V c main_arg0 : S100000x64.Idx → EReal) (ix2 (Cert.Spec.row (blockOf0 t) y) k) := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t (0 : Fin 2) * 4000 + 1 * y.val = t.val * 4000 + y.val; rw [e0]; omega
  | ⟨1, _⟩ => show win0_0.index t (1 : Fin 2) * 64 + 1 * k.val = k.val; rw [e1]; omega

/-- Block `t` of the summed messages is the same rows of its array. -/
theorem iblk0_1_at (c : Dev nD) (t : Fin cfg0.N) (y : Fin 4000) (k : Fin 64) :
    (iblk0 V c 1 t : Vec Ideal S4000x64 .f32) (ix2 y k) = (V c main_v16 : S100000x64.Idx → EReal) (ix2 (Cert.Spec.row (blockOf0 t) y) k) := by
  obtain ⟨-, -, e0, e1, -⟩ := idx_facts0 t
  unfold iblk0
  rw [View.read_apply]
  show V c main_v16 _ = V c main_v16 _
  refine congrArg _ (funext fun a => Fin.ext ?_)
  match a with
  | ⟨0, _⟩ => show win0_1.index t (0 : Fin 2) * 4000 + 1 * y.val = t.val * 4000 + y.val; rw [e0]; omega
  | ⟨1, _⟩ => show win0_1.index t (1 : Fin 2) * 64 + 1 * k.val = k.val; rw [e1]; omega

/-- Block `t` of the inverse degrees, one per row. -/
theorem iblk0_2_at (c : Dev nD) (t : Fin cfg0.N) (y : Fin 4000) :
    (iblk0 V c 2 t : Vec Ideal S4000x1 .f32) (ix2 y (0 : Fin 1)) = (V c main_v23 : S100000x1.Idx → EReal) (ix2 (Cert.Spec.row (blockOf0 t) y) (0 : Fin 1)) := by
  obtain ⟨-, -, -, -, e0, e1, -⟩ := idx_facts0 t
  unfold iblk0
  rw [View.read_apply]
  show V c main_v23 _ = V c main_v23 _
  refine congrArg _ (funext fun a => Fin.ext ?_)
  match a with
  | ⟨0, _⟩ => show win0_2.index t (0 : Fin 2) * 4000 + 1 * y.val = t.val * 4000 + y.val; rw [e0]; omega
  | ⟨1, _⟩ => show win0_2.index t (1 : Fin 2) * 1 + 1 * 0 = 0; rw [e1]

/-- The transposed weights are read whole at every point. -/
theorem iblk0_3_at (c : Dev nD) (t : Fin cfg0.N) (k c' : Fin 64) :
    (iblk0 V c 3 t : Vec Ideal S64x64 .bf16) (ix2 k c') = (V c main_v25 : S64x64.Idx → EReal) (ix2 k c') := by
  obtain ⟨-, -, -, -, -, -, e0, e1, -⟩ := idx_facts0 t
  unfold iblk0
  rw [View.read_apply]
  show V c main_v25 _ = V c main_v25 _
  refine congrArg _ (funext fun a => Fin.ext ?_)
  match a with
  | ⟨0, _⟩ => show win0_3.index t (0 : Fin 2) * 64 + 1 * k.val = k.val; rw [e0]; omega
  | ⟨1, _⟩ => show win0_3.index t (1 : Fin 2) * 64 + 1 * c'.val = c'.val; rw [e1]; omega

/-- So is the bias row. -/
theorem iblk0_4_at (c : Dev nD) (t : Fin cfg0.N) (c' : Fin 64) :
    (iblk0 V c 4 t : Vec Ideal S1x64 .f32) (ix2 (0 : Fin 1) c') = (V c main_v26 : S1x64.Idx → EReal) (ix2 (0 : Fin 1) c') := by
  obtain ⟨-, -, -, -, -, -, -, -, e0, e1, -⟩ := idx_facts0 t
  unfold iblk0
  rw [View.read_apply]
  show V c main_v26 _ = V c main_v26 _
  refine congrArg _ (funext fun a => Fin.ext ?_)
  match a with
  | ⟨0, _⟩ => show win0_4.index t (0 : Fin 2) * 1 + 1 * 0 = 0; rw [e0]
  | ⟨1, _⟩ => show win0_4.index t (1 : Fin 2) * 64 + 1 * c'.val = c'.val; rw [e1]; omega

/-- The linear stage as a function of whole arrays: the root features `x`, the summed messages `ms`, the inverse
    degrees `d` (a column), the transposed weights `w` and the bias `b` (a row). -/
def linArr (x ms : S100000x64.Idx → EReal) (d : S100000x1.Idx → EReal) (w : S64x64.Idx → EReal) (b : S1x64.Idx → EReal)
    (r : Fin 100000) (c : Fin 64) : EReal :=
  (∑ k : Fin 64, (x (ix2 r k) + ms (ix2 r k) * d (ix2 r (0 : Fin 1))) * w (ix2 k c)) + b (ix2 (0 : Fin 1) c)

/-- The body's linear stage at point `t`, row `y` of the block, is the array function at row 4000·t + y. -/
theorem lin_at_point (c : Dev nD) (t : Fin cfg0.N) (y : Fin 4000) (c' : Fin 64) :
    k0_pay1 (F := Ideal) (iblk0 V c 0 t) (iblk0 V c 1 t) (iblk0 V c 2 t) (iblk0 V c 3 t) (iblk0 V c 4 t) (ix2 y c')
      = linArr (V c main_arg0) (V c main_v16) (V c main_v23) (V c main_v25) (V c main_v26) (Cert.Spec.row (blockOf0 t) y) c' := by
  refine (lin_block (iblk0 V c 0 t) (iblk0 V c 1 t) (iblk0 V c 2 t) (iblk0 V c 3 t) (iblk0 V c 4 t) y c').trans ?_
  unfold linArr
  rw [iblk0_4_at V c t c']
  refine congrArg (· + _) (Finset.sum_congr rfl fun k _ => ?_)
  rw [iblk0_0_at V c t y k, iblk0_1_at V c t y k, iblk0_2_at V c t y, iblk0_3_at V c t k c']

/-- The linear stage as an array. -/
abbrev G5 (x ms : S100000x64.Idx → EReal) (d : S100000x1.Idx → EReal) (w : S64x64.Idx → EReal) (b : S1x64.Idx → EReal) :
    S100000x64.Idx → EReal := fun i => linArr x ms d w b (i 0) (i 1)

/-- What point `t` writes back to the linear stage's array is block `t` of that array function. -/
theorem flushed5_eq (c : Dev nD) (t : Fin cfg0.N) :
    (dat0 V c).flushed 5 t = ((cfg0.win 5).blk t).view.read (Elt Ideal)
      (G5 (V c main_arg0) (V c main_v16) (V c main_v23) (V c main_v25) (V c main_v26)) := by
  show (cfg0.win 5).cut (grid0.coords t) ((dat0 V c).after 5 t) = _
  rw [after0_5]
  unfold out0_5
  rw [View.canon_unit_zero hz2]
  simp only [View.ld_unit_zero (S := S4000x64) hz2, View.ld_unit_zero (S := S4000x1) hz2, View.ld_unit_zero (S := S64x64) hz2,
    View.ld_unit_zero (S := S1x64) hz2]
  funext j
  obtain ⟨y, c', rfl⟩ : ∃ (y : Fin 4000) (c' : Fin 64), j = ix2 y c' := ⟨j 0, j 1, eq_ix2 j⟩
  obtain ⟨-, -, -, -, -, -, -, -, -, -, e0, e1, -⟩ := idx_facts0 t
  have hemb : ((cfg0.win 5).blk t).view.emb (ix2 y c') = (ix2 (Cert.Spec.row (blockOf0 t) y) c' : S100000x64.Idx) :=
    funext fun a => Fin.ext (by
      match a with
      | ⟨0, _⟩ => show win0_5.index t (0 : Fin 2) * 4000 + 1 * y.val = t.val * 4000 + y.val; rw [e0]; omega
      | ⟨1, _⟩ => show win0_5.index t (1 : Fin 2) * 64 + 1 * c'.val = c'.val; rw [e1]; omega)
  refine (lin_at_point V c t y c').trans ?_
  show _ = G5 (V c main_arg0) (V c main_v16) (V c main_v23) (V c main_v25) (V c main_v26) (((cfg0.win 5).blk t).view.emb (ix2 y c'))
  rw [hemb]

/-- An index of the array is in point `t`'s block iff each coordinate is in the block's range on its axis. -/
theorem mem_blk5 (t : Fin cfg0.N) (i : S100000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v27_0).slice (win0_5.rect t)).set ↔ _
  rw [View.set_slice_whole, Rect.mem_set_unit]
  exact Iff.rfl

/-- Every row is in some point's block: row `r` is in block `r / 4000`. -/
theorem cover5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 25 := N_0
  refine ⟨⟨(i 0).val / 4000, by rw [hN]; omega⟩, flush0_5 _, ?_⟩
  rw [mem_blk5]
  obtain ⟨-, -, -, -, -, -, -, -, -, -, e0, e1, -⟩ := idx_facts0 ⟨(i 0).val / 4000, by rw [hN]; omega⟩
  intro a
  match a with
  | ⟨0, _⟩ =>
    show win0_5.index _ (0 : Fin 2) * 4000 ≤ (i 0).val ∧ (i 0).val < win0_5.index _ (0 : Fin 2) * 4000 + 4000
    rw [e0]; show (i 0).val / 4000 * 4000 ≤ (i 0).val ∧ (i 0).val < (i 0).val / 4000 * 4000 + 4000; omega
  | ⟨1, _⟩ =>
    show win0_5.index _ (1 : Fin 2) * 64 ≤ (i 1).val ∧ (i 1).val < win0_5.index _ (1 : Fin 2) * 64 + 64
    rw [e1]; omega

/-- The linear stage's array after the first launch. -/
theorem final5 (c : Dev nD) :
    (dat0 V c).arrAt 5 cfg0.N = G5 (V c main_arg0) (V c main_v16) (V c main_v23) (V c main_v25) (V c main_v26) :=
  (dat0 V c).arrAt_eq_of_cover 5 _ (fun t _ => flushed5_eq V c t) cover5

end Cert.KernelIdeal.Hand

end
-- ==== Proof.Consts.lean ====
/-
  The float constants of this certificate's mathematics, as the extended reals their patterns denote:
  `+0.0` is `0`, `1.0` is `1`, the row count is the real `100000`, and the normalisation's `ε` is a
  positive real (`10995116 · 2⁻⁴⁰`, the single-precision number nearest `1e-5`).
-/
import Idealize.ShloMosaic.PureOps.Ideal
import proofs.«123687_j59407987638626_2_alg».proof.Proof.Spec

noncomputable section

namespace Cert.Consts

open Idealize.ShloMosaic

/-- `+0.0` denotes `0`. -/
theorem zeroLit_eq : Cert.Spec.zeroLit = 0 := by
  simp [Cert.Spec.zeroLit, Ideal.ofBits, Ideal.ieee]

/-- `1.0` denotes `1`. -/
theorem oneLit_eq : Cert.Spec.oneLit = 1 := by
  simp [Cert.Spec.oneLit, Ideal.ofBits, Ideal.ieee, -EReal.coe_mul]; norm_num

/-- The row count's pattern denotes the real `100000`: `(2²³ + 4411392) · 2⁻⁷`. -/
theorem nLit_eq : Cert.Spec.nLit = ((100000 : ℝ) : EReal) := by
  simp [Cert.Spec.nLit, Ideal.ofBits, Ideal.ieee, -EReal.coe_mul]; norm_num

/-- `ε`'s pattern denotes a positive real: `(2²³ + 2606508) · 2⁻⁴⁰`. -/
theorem epsLit_pos : ∃ e : ℝ, 0 < e ∧ Cert.Spec.epsLit = (e : EReal) := by
  refine ⟨10995116 * (2 : ℝ) ^ (-40 : ℤ), by positivity, ?_⟩
  simp [Cert.Spec.epsLit, Ideal.ofBits, Ideal.ieee, -EReal.coe_mul]

end Cert.Consts

end
-- ==== Proof.KernelStats.lean ====
/-
  The first kernel body's column statistics of a block, and the second body's gate, entry by entry,
  on the extended reals.

  On one block of 4000 rows the first body emits, beside its linear stage `lin`, the column sums
  Σ_y lin[y,c] and the column sums of squares Σ_y lin[y,c]²: a reduction over the row axis, then three
  reshapes [64] → [1,64] → [64] → [1,1,64] that move no data.  The second body scales and shifts a
  block column by column and gates it:
      out[y,c] = 1 / (1 + exp(−Σ_k (lin[y,k]·scale[k] + shift[k]) · g[k,c])) · (lin[y,c]·scale[c] + shift[c]).
-/
import proofs.«123687_j59407987638626_2_alg».proof.Proof.KernelBlocks
import proofs.«123687_j59407987638626_2_alg».proof.Proof.Consts
import proofs.«123687_j59407987638626_2_alg».proof.Proof.Spec

noncomputable section

namespace Cert.KernelIdeal.Hand

open Cert.KernelIdeal Cert.KernelIdeal.Gen Idealize.ShloMosaic Idealize.ShloMosaic.ValueIdx

/-- The three reshapes [64] → [1,64] → [64] → [1,1,64] move no data: entry (0,0,c) of the result is entry c of the
    operand (the first two undo each other; the third keeps the row-major position, `(0·1 + 0)·64 + c = c`). -/
theorem reshapes_at {α : Type} (v : S64.Idx → α) (c : Fin 64) :
    shapeCast S1x1x64 (shapeCast S64 (shapeCast S1x64 v shapeCasts_S64_S1x64) shapeCasts_S1x64_S64) shapeCasts_S64_S1x1x64
        (ix3 (0 : Fin 1) (0 : Fin 1) c)
      = v (ix1 c) := by
  rw [shapeCast_shapeCast]
  refine shapeCast_apply v shapeCasts_S64_S1x1x64 (ix3 (0 : Fin 1) (0 : Fin 1) c) (ix1 c) ?_
  rw [Shape.rowMajor_val_one, Shape.rowMajor_val_three]
  show c.val = (0 * 1 + 0) * 64 + c.val
  omega

/-- Column `c` with row `k` put back on the reduced axis is the entry (k, c). -/
theorem lift_at (c : Fin 64) (k : Fin 4000) : reduces_S4000x64_S64.lift (ix1 c) k = ix2 k c :=
  funext fun a => Fin.ext (by
    match a with
    | ⟨0, _⟩ => rfl
    | ⟨1, _⟩ => rfl)

/-- A sum over the row axis of a [4000,64] block, at column `c`: the sum of the column's 4000 entries. -/
theorem colSum_at (src : FVec Ideal S4000x64 .f32) (c : Fin 64) :
    multiReduction .add [0] S64 src 0x00000000#32 reduces_S4000x64_S64 (.inl rfl) rfl (ix1 c)
      = ∑ y : Fin 4000, src (ix2 y c) := by
  refine (Ideal.multiReduction_add_single src _ reduces_S4000x64_S64 _ _ (ix1 c)).trans ?_
  show ∑ k : Fin 4000, src (reduces_S4000x64_S64.lift (ix1 c) k) = ∑ y : Fin 4000, src (ix2 y c)
  exact Finset.sum_congr rfl fun k _ => by rw [lift_at]

/-- The first body's column sums on a block: the sums of the linear stage's columns. -/
theorem sum_block (x0 x1 : Vec Ideal S4000x64 .f32) (x2 : Vec Ideal S4000x1 .f32) (x3 : Vec Ideal S64x64 .bf16) (x4 : Vec Ideal S1x64 .f32)
    (c : Fin 64) :
    k0_pay2 (F := Ideal) x0 x1 x2 x3 x4 (ix3 (0 : Fin 1) (0 : Fin 1) c)
      = ∑ y : Fin 4000, k0_pay1 (F := Ideal) x0 x1 x2 x3 x4 (ix2 y c) := by
  unfold k0_pay2
  rw [reshapes_at, colSum_at]

/-- The first body's column sums of squares on a block. -/
theorem sq_block (x0 x1 : Vec Ideal S4000x64 .f32) (x2 : Vec Ideal S4000x1 .f32) (x3 : Vec Ideal S64x64 .bf16) (x4 : Vec Ideal S1x64 .f32)
    (c : Fin 64) :
    k0_pay3 (F := Ideal) x0 x1 x2 x3 x4 (ix3 (0 : Fin 1) (0 : Fin 1) c)
      = ∑ y : Fin 4000, k0_pay1 (F := Ideal) x0 x1 x2 x3 x4 (ix2 y c) * k0_pay1 (F := Ideal) x0 x1 x2 x3 x4 (ix2 y c) := by
  unfold k0_pay3
  rw [reshapes_at, colSum_at]
  simp only [mulf_apply]

/-- The logistic function of a vector at an index: `1 / (1 + exp(−x))` of the entry. -/
theorem logistic_at {s : Shape} {φ : FTy} (a : FVec Ideal s φ) (i : s.Idx) :
    logistic a i = Ideal.div 1 (1 + Ideal.exp (-(a i))) := rfl

/-- The second body on a block, at row `y` and column `c`: the gate of the scaled and shifted row, times the scaled
    and shifted entry. -/
theorem gate_block (x0 : Vec Ideal S4000x64 .f32) (x1 x2 : Vec Ideal S1x64 .f32) (x3 : Vec Ideal S64x64 .bf16)
    (y : Fin 4000) (c : Fin 64) :
    k1_pay1 (F := Ideal) x0 x1 x2 x3 (ix2 y c)
      = Ideal.div Cert.Spec.oneLit (Cert.Spec.oneLit + Ideal.exp (-(∑ k : Fin 64,
            (x0 (ix2 y k) * x1 (ix2 (0 : Fin 1) k) + x2 (ix2 (0 : Fin 1) k)) * x3 (ix2 k c))))
          * (x0 (ix2 y c) * x1 (ix2 (0 : Fin 1) c) + x2 (ix2 (0 : Fin 1) c)) := by
  unfold k1_pay1
  rw [mulf_apply, logistic_at, matmul_at, Cert.Consts.oneLit_eq]
  simp only [shapeCast_self, truncf_apply, addf_apply, mulf_apply, rowBroadcast_at]

end Cert.KernelIdeal.Hand

end
-- ==== Proof.KernelGateArray.lean ====
/-
  From blocks to the array, for the second launch.

  The second launch runs its body at 25 grid points; point t works on rows 4000·t … 4000·t + 3999 of the
  linear stage's array, and reads the scale row, the shift row and the gate matrix whole at every point.
  What point t writes back is the body's result on those rows, so, the 25 blocks tiling the rows, the
  output array ends as one function of the arrays the launch found, index by index: the gate of the scaled
  and shifted row, times the scaled and shifted entry.
-/
import proofs.«123687_j59407987638626_2_alg».proof.Proof.Gen.KernelIdeal.Frame
import proofs.«123687_j59407987638626_2_alg».proof.Proof.KernelArrays
import proofs.«123687_j59407987638626_2_alg».proof.Proof.KernelStats
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A grid point of the second launch as a block number. -/
def blockOf1 (t : Fin cfg1.N) : Fin 25 := ⟨t.val, lt_of_lt_of_eq t.isLt N_1⟩

/-- The second launch's index maps, decided over the grid: windows 0 and 4 are at block t on their row axis and
    block 0 on the column axis; windows 1, 2 and 3 stay at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of the linear stage's array is rows 4000·t … of the array. -/
theorem iblk1_0_at (c : Dev nD) (t : Fin cfg1.N) (y : Fin 4000) (k : Fin 64) :
    (iblk1 V c 0 t : Vec Ideal S4000x64 .f32) (ix2 y k) = (V c main_v27_0 : S100000x64.Idx → EReal) (ix2 (Cert.Spec.row (blockOf1 t) y) k) := by
  obtain ⟨e0, e1, -⟩ := idx_facts1 t
  unfold iblk1
  rw [View.read_apply]
  show V c main_v27_0 _ = V c main_v27_0 _
  refine congrArg _ (funext fun a => Fin.ext ?_)
  match a with
  | ⟨0, _⟩ => show win1_0.index t (0 : Fin 2) * 4000 + 1 * y.val = t.val * 4000 + y.val; rw [e0]; omega
  | ⟨1, _⟩ => show win1_0.index t (1 : Fin 2) * 64 + 1 * k.val = k.val; rw [e1]; omega

/-- The scale row is read whole at every point. -/
theorem iblk1_1_at (c : Dev nD) (t : Fin cfg1.N) (c' : Fin 64) :
    (iblk1 V c 1 t : Vec Ideal S1x64 .f32) (ix2 (0 : Fin 1) c') = (V c main_v43 : S1x64.Idx → EReal) (ix2 (0 : Fin 1) c') := by
  obtain ⟨-, -, e0, e1, -⟩ := idx_facts1 t
  unfold iblk1
  rw [View.read_apply]
  show V c main_v43 _ = V c main_v43 _
  refine congrArg _ (funext fun a => Fin.ext ?_)
  match a with
  | ⟨0, _⟩ => show win1_1.index t (0 : Fin 2) * 1 + 1 * 0 = 0; rw [e0]
  | ⟨1, _⟩ => show win1_1.index t (1 : Fin 2) * 64 + 1 * c'.val = c'.val; rw [e1]; omega

/-- So is the shift row. -/
theorem iblk1_2_at (c : Dev nD) (t : Fin cfg1.N) (c' : Fin 64) :
    (iblk1 V c 2 t : Vec Ideal S1x64 .f32) (ix2 (0 : Fin 1) c') = (V c main_v47 : S1x64.Idx → EReal) (ix2 (0 : Fin 1) c') := by
  obtain ⟨-, -, -, -, e0, e1, -⟩ := idx_facts1 t
  unfold iblk1
  rw [View.read_apply]
  show V c main_v47 _ = V c main_v47 _
  refine congrArg _ (funext fun a => Fin.ext ?_)
  match a with
  | ⟨0, _⟩ => show win1_2.index t (0 : Fin 2) * 1 + 1 * 0 = 0; rw [e0]
  | ⟨1, _⟩ => show win1_2.index t (1 : Fin 2) * 64 + 1 * c'.val = c'.val; rw [e1]; omega

/-- And so is the gate matrix. -/
theorem iblk1_3_at (c : Dev nD) (t : Fin cfg1.N) (k c' : Fin 64) :
    (iblk1 V c 3 t : Vec Ideal S64x64 .bf16) (ix2 k c') = (V c main_v48 : S64x64.Idx → EReal) (ix2 k c') := by
  obtain ⟨-, -, -, -, -, -, e0, e1, -⟩ := idx_facts1 t
  unfold iblk1
  rw [View.read_apply]
  show V c main_v48 _ = V c main_v48 _
  refine congrArg _ (funext fun a => Fin.ext ?_)
  match a with
  | ⟨0, _⟩ => show win1_3.index t (0 : Fin 2) * 64 + 1 * k.val = k.val; rw [e0]; omega
  | ⟨1, _⟩ => show win1_3.index t (1 : Fin 2) * 64 + 1 * c'.val = c'.val; rw [e1]; omega

/-- The normalise-and-gate stage as a function of whole arrays: the linear stage's array h, the scale row sc, the
    shift row sh and the gate matrix g. -/
def gateArr (h : S100000x64.Idx → EReal) (sc sh : S1x64.Idx → EReal) (g : S64x64.Idx → EReal) (r : Fin 100000) (c : Fin 64) : EReal :=
  Ideal.div Cert.Spec.oneLit (Cert.Spec.oneLit + Ideal.exp (-(∑ k : Fin 64,
      (h (ix2 r k) * sc (ix2 (0 : Fin 1) k) + sh (ix2 (0 : Fin 1) k)) * g (ix2 k c))))
    * (h (ix2 r c) * sc (ix2 (0 : Fin 1) c) + sh (ix2 (0 : Fin 1) c))

/-- The body at point t, row y of the block, is the array function at row 4000·t + y. -/
theorem gate_at_point (c : Dev nD) (t : Fin cfg1.N) (y : Fin 4000) (c' : Fin 64) :
    k1_pay1 (F := Ideal) (iblk1 V c 0 t) (iblk1 V c 1 t) (iblk1 V c 2 t) (iblk1 V c 3 t) (ix2 y c')
      = gateArr (V c main_v27_0) (V c main_v43) (V c main_v47) (V c main_v48) (Cert.Spec.row (blockOf1 t) y) c' := by
  refine (gate_block (iblk1 V c 0 t) (iblk1 V c 1 t) (iblk1 V c 2 t) (iblk1 V c 3 t) y c').trans ?_
  unfold gateArr
  rw [iblk1_0_at V c t y c', iblk1_1_at V c t c', iblk1_2_at V c t c']
  refine congrArg (fun s => Ideal.div Cert.Spec.oneLit (Cert.Spec.oneLit + Ideal.exp (-s)) * _)
    (Finset.sum_congr rfl fun k _ => ?_)
  rw [iblk1_0_at V c t y k, iblk1_1_at V c t k, iblk1_2_at V c t k, iblk1_3_at V c t k c']

/-- The normalise-and-gate stage as an array. -/
abbrev G4 (h : S100000x64.Idx → EReal) (sc sh : S1x64.Idx → EReal) (g : S64x64.Idx → EReal) :
    S100000x64.Idx → EReal := fun i => gateArr h sc sh g (i 0) (i 1)

/-- What point t writes back to the output array is block t of that array function. -/
theorem flushed4_eq (c : Dev nD) (t : Fin cfg1.N) :
    (dat1 V c).flushed 4 t = ((cfg1.win 4).blk t).view.read (Elt Ideal)
      (G4 (V c main_v27_0) (V c main_v43) (V c main_v47) (V c main_v48)) := by
  show (cfg1.win 4).cut (grid1.coords t) ((dat1 V c).after 4 t) = _
  rw [after1_4]
  unfold out1_4
  rw [View.canon_unit_zero hz2]
  simp only [View.ld_unit_zero (S := S4000x64) hz2, View.ld_unit_zero (S := S64x64) hz2, View.ld_unit_zero (S := S1x64) hz2]
  funext j
  obtain ⟨y, c', rfl⟩ : ∃ (y : Fin 4000) (c' : Fin 64), j = ix2 y c' := ⟨j 0, j 1, eq_ix2 j⟩
  obtain ⟨-, -, -, -, -, -, -, -, e0, e1⟩ := idx_facts1 t
  have hemb : ((cfg1.win 4).blk t).view.emb (ix2 y c') = (ix2 (Cert.Spec.row (blockOf1 t) y) c' : S100000x64.Idx) :=
    funext fun a => Fin.ext (by
      match a with
      | ⟨0, _⟩ => show win1_4.index t (0 : Fin 2) * 4000 + 1 * y.val = t.val * 4000 + y.val; rw [e0]; omega
      | ⟨1, _⟩ => show win1_4.index t (1 : Fin 2) * 64 + 1 * c'.val = c'.val; rw [e1]; omega)
  refine (gate_at_point V c t y c').trans ?_
  show _ = G4 (V c main_v27_0) (V c main_v43) (V c main_v47) (V c main_v48) (((cfg1.win 4).blk t).view.emb (ix2 y c'))
  rw [hemb]

/-- An index of the array is in point t's block iff each coordinate is in the block's range on its axis. -/
theorem mem_blk4 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v49).slice (win1_4.rect t)).set ↔ _
  rw [View.set_slice_whole, Rect.mem_set_unit]
  exact Iff.rfl

/-- Every row is in some point's block: row r is in block r / 4000. -/
theorem cover4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 25 := N_1
  refine ⟨⟨(i 0).val / 4000, by rw [hN]; omega⟩, flush1_4 _, ?_⟩
  rw [mem_blk4]
  obtain ⟨-, -, -, -, -, -, -, -, e0, e1⟩ := idx_facts1 ⟨(i 0).val / 4000, by rw [hN]; omega⟩
  intro a
  match a with
  | ⟨0, _⟩ =>
    show win1_4.index _ (0 : Fin 2) * 4000 ≤ (i 0).val ∧ (i 0).val < win1_4.index _ (0 : Fin 2) * 4000 + 4000
    rw [e0]; show (i 0).val / 4000 * 4000 ≤ (i 0).val ∧ (i 0).val < (i 0).val / 4000 * 4000 + 4000; omega
  | ⟨1, _⟩ =>
    show win1_4.index _ (1 : Fin 2) * 64 ≤ (i 1).val ∧ (i 1).val < win1_4.index _ (1 : Fin 2) * 64 + 64
    rw [e1]; omega

/-- The output array after the second launch. -/
theorem final4 (c : Dev nD) :
    (dat1 V c).arrAt 4 cfg1.N = G4 (V c main_v27_0) (V c main_v43) (V c main_v47) (V c main_v48) :=
  (dat1 V c).arrAt_eq_of_cover 4 _ (fun t _ => flushed4_eq V c t) cover4

end Cert.KernelIdeal.Hand

end
-- ==== Proof.HostBefore.lean ====
/-
  What the host prepares before the first launch.

  Before its first launch the program runs 33 host operations on its arguments: the node features x [100000, 64], the edge
  list ei [2, 1200000] (row 0 the source of each edge, row 1 its destination), the weights W [64, 64] and the bias b [64].
  They gather the source rows of x, append a column of ones, and scatter-add the 65-wide rows at the destinations: columns
  0..63 of the result are the summed incoming messages and column 64 is the in-degree.  From these the launch takes the
  messages, the column 1 / max(degree, 1), the transpose of W (its change of float format is the identity on the extended
  reals) and b as a row.  Here each prepared array is written as a function of the arguments, the run of the 33 operations is
  shown to leave exactly these functions in the buffers the launch reads, and each function is read at an index.
-/
import proofs.«123687_j59407987638626_2_alg».proof.Proof.Gen.KernelIdeal.Frame
import Idealize.ShloMosaic.Lib.Pipeline.Value
import Idealize.ShloMosaic.Lib.ValueIdx
import Idealize.ShloMosaic.Lib.StableHlo.Run
import proofs.«123687_j59407987638626_2_alg».proof.Proof.Gen.ReferenceIdeal.Read
import proofs.«123687_j59407987638626_2_alg».proof.Proof.Spec

set_option maxRecDepth 16384

noncomputable section

namespace Cert.HostBefore

open Cert.KernelIdeal Cert.KernelIdeal.Gen Idealize.ShloMosaic Idealize.ShloMosaic.TcCoe Idealize.SL.Sem
open Idealize.ShloMosaic.StableHlo Idealize.ShloMosaic.ValueIdx

/-! ## The prepared arrays as functions of the arguments (any float instance) -/

section Terms

variable {F : FTy → Type} [FloatOps F]

/-- Row 0 of the edge list as a flat array: the source node of each edge. -/
def edgeSrc (ei : IVec S2x1200000 32) : IVec S1200000 32 :=
  shapeCast _ (extractStridedSlice S1x1200000 ![0, 0] ei slices_S2x1200000_S1x1200000_0_0) shapeCasts_S1x1200000_S1200000

/-- Row 1 of the edge list as a flat array: the destination node of each edge. -/
def edgeDst (ei : IVec S2x1200000 32) : IVec S1200000 32 :=
  shapeCast _ (extractStridedSlice S1x1200000 ![1, 0] ei slices_S2x1200000_S1x1200000_1_0) shapeCasts_S1x1200000_S1200000

/-- The gather's start indices: each source, a negative one moved up by 100000, as a column. -/
def srcIdx (ei : IVec S2x1200000 32) : IVec S1200000x1 32 :=
  broadcastInDim S1200000x1 ![0] bcast_S1200000_S1200000x1_0
    (select (cmpi .slt (edgeSrc ei) (broadcastInDim S1200000 ![] bcast_S_S1200000 (constantI S_ 32 0#32)))
      (addi (edgeSrc ei) (broadcastInDim S1200000 ![] bcast_S_S1200000 (constantI S_ 32 100000#32)))
      (edgeSrc ei))

/-- The scatter's indices: each destination, as a column. -/
def dstIdx (ei : IVec S2x1200000 32) : IVec S1200000x1 32 :=
  broadcastInDim S1200000x1 ![0] bcast_S1200000_S1200000x1_0 (edgeDst ei)

/-- The source row of x for every edge. -/
def gathered (x : FVec F S100000x64 .f32) (ei : IVec S2x1200000 32) : FVec F S1200000x64 .f32 :=
  Host.gather gather_S100000x64_S1200000x1_S1200000x64_1_0_n_n_0_1_164 x (srcIdx ei)

/-- The gathered rows, a one appended to each, summed at the destinations into a zero array: 65 columns. -/
def scattered (x : FVec F S100000x64 .f32) (ei : IVec S2x1200000 32) : FVec F S100000x65 .f32 :=
  Host.scatterAdd scatter_S100000x65_S1200000x1_S1200000x65_1_0_0_1
    (broadcastInDim S100000x65 ![] bcast_S_S100000x65 (constant (F := F) S_ .f32 0x00000000#32))
    (dstIdx ei)
    (concatenate S1200000x65 1 [⟨S1200000x64, gathered x ei⟩,
        ⟨S1200000x1, broadcastInDim S1200000x1 ![] bcast_S_S1200000x1 (constant (F := F) S_ .f32 0x3F800000#32)⟩]
      concatenates_S1200000x64_S1200000x1_S1200000x65_d1)

/-- The summed messages: columns 0..63. -/
def msgArr (x : FVec F S100000x64 .f32) (ei : IVec S2x1200000 32) : FVec F S100000x64 .f32 :=
  extractStridedSlice S100000x64 ![0, 0] (scattered x ei) slices_S100000x65_S100000x64_0_0

/-- The in-degrees: column 64, flat. -/
def degArr (x : FVec F S100000x64 .f32) (ei : IVec S2x1200000 32) : FVec F S100000 .f32 :=
  shapeCast _ (extractStridedSlice S100000x1 ![0, 64] (scattered x ei) slices_S100000x65_S100000x1_0_64) shapeCasts_S100000x1_S100000

/-- One over the in-degree, the degree of an isolated node read as one, as a column. -/
def invDegCol (x : FVec F S100000x64 .f32) (ei : IVec S2x1200000 32) : FVec F S100000x1 .f32 :=
  shapeCast _
    (Host.divf (broadcastInDim S100000 ![] bcast_S_S100000 (constant (F := F) S_ .f32 0x3F800000#32))
      (maximumf (degArr x ei) (broadcastInDim S100000 ![] bcast_S_S100000 (constant (F := F) S_ .f32 0x3F800000#32))))
    shapeCasts_S100000_S100000x1

/-- The weights transposed, in the narrower float format. -/
def wT (W : FVec F S64x64 .f32) : FVec F S64x64 .bf16 :=
  truncf .bf16 (transpose S64x64 [1, 0] W transposes_S64x64_S64x64_1_0) bitsLt_bf16_f32

/-- The bias as a row. -/
def bRow (b : FVec F S64 .f32) : FVec F S1x64 .f32 :=
  shapeCast _ b shapeCasts_S64_S1x64

end Terms

/-! ## The run of the 33 operations leaves these functions in the buffers the launch reads -/

section Run

variable {F : FTy → Type} [FloatOps F] (Wv : Valuation τ sig (Elt F))

/-- The summed messages. -/
theorem before_v16 :
    (StableHlo.after hostOps0 Wv (Proc.devRef .tc main_v16) : FVec F S100000x64 .f32)
      = msgArr (Wv (Proc.devRef .tc main_arg0)) (Wv (Proc.devRef .tc main_arg1)) := by
  dsimp only [hostOps0]
  after_results
  rfl

/-- One over the in-degree. -/
theorem before_v23 :
    (StableHlo.after hostOps0 Wv (Proc.devRef .tc main_v23) : FVec F S100000x1 .f32)
      = invDegCol (Wv (Proc.devRef .tc main_arg0)) (Wv (Proc.devRef .tc main_arg1)) := by
  dsimp only [hostOps0]
  after_results_simp <;> rfl

/-- The transposed weights. -/
theorem before_v25 :
    (StableHlo.after hostOps0 Wv (Proc.devRef .tc main_v25) : FVec F S64x64 .bf16) = wT (Wv (Proc.devRef .tc main_arg2)) := by
  dsimp only [hostOps0]
  after_results
  rfl

/-- The bias row. -/
theorem before_v26 :
    (StableHlo.after hostOps0 Wv (Proc.devRef .tc main_v26) : FVec F S1x64 .f32) = bRow (Wv (Proc.devRef .tc main_arg3)) := by
  dsimp only [hostOps0]
  after_results
  rfl

/-- No argument is written. -/
theorem before_arg0 :
    StableHlo.after hostOps0 Wv (Proc.devRef .tc main_arg0) = Wv (Proc.devRef .tc main_arg0) := by
  dsimp only [hostOps0]
  after_results

theorem before_arg1 :
    StableHlo.after hostOps0 Wv (Proc.devRef .tc main_arg1) = Wv (Proc.devRef .tc main_arg1) := by
  dsimp only [hostOps0]
  after_results

theorem before_arg2 :
    StableHlo.after hostOps0 Wv (Proc.devRef .tc main_arg2) = Wv (Proc.devRef .tc main_arg2) := by
  dsimp only [hostOps0]
  after_results

theorem before_arg3 :
    StableHlo.after hostOps0 Wv (Proc.devRef .tc main_arg3) = Wv (Proc.devRef .tc main_arg3) := by
  dsimp only [hostOps0]
  after_results

theorem before_arg4 :
    StableHlo.after hostOps0 Wv (Proc.devRef .tc main_arg4) = Wv (Proc.devRef .tc main_arg4) := by
  dsimp only [hostOps0]
  after_results

theorem before_arg5 :
    StableHlo.after hostOps0 Wv (Proc.devRef .tc main_arg5) = Wv (Proc.devRef .tc main_arg5) := by
  dsimp only [hostOps0]
  after_results

theorem before_arg6 :
    StableHlo.after hostOps0 Wv (Proc.devRef .tc main_arg6) = Wv (Proc.devRef .tc main_arg6) := by
  dsimp only [hostOps0]
  after_results

end Run

/-! ## The prepared arrays read at an index, on the extended reals -/

section AtIdeal

/-- The transposed weights at (k, c) are the weights at (c, k): the change of format is the identity. -/
theorem wT_at (W : FVec Ideal S64x64 .f32) (k c : Fin 64) : wT W (ix2 k c) = W (ix2 c k) := by
  unfold wT
  show transpose S64x64 [1, 0] W transposes_S64x64_S64x64_1_0 (ix2 k c) = W (ix2 c k)
  exact transpose_apply [1, 0] W transposes_S64x64_S64x64_1_0 (ix2 k c) (ix2 c k) (fun b => match b with
    | ⟨0, _⟩ => rfl
    | ⟨1, _⟩ => rfl)

/-- The bias row at (0, c) is the bias at c. -/
theorem bRow_at (b : FVec Ideal S64 .f32) (c : Fin 64) : bRow b (ix2 (0 : Fin 1) c) = b (ix1 c) := by
  unfold bRow
  exact shapeCast_apply b shapeCasts_S64_S1x64 (ix2 (0 : Fin 1) c) (ix1 c)
    (by rewrite [Shape.rowMajor_val_two, Shape.rowMajor_val_one]; show c.val = 0 * 64 + c.val; omega)

/-- Columns 0..63 of a 65-column array, read at (r, k). -/
theorem slice64_at (y : FVec Ideal S100000x65 .f32) (r : Fin 100000) (k : Fin 64) :
    extractStridedSlice S100000x64 ![0, 0] y slices_S100000x65_S100000x64_0_0 (ix2 r k)
      = y (ix2 r (⟨k.val, by omega⟩ : Fin 65)) :=
  extractStridedSlice_apply ![0, 0] y slices_S100000x65_S100000x64_0_0 (ix2 r k)
    (ix2 r (⟨k.val, by omega⟩ : Fin 65)) (fun a => match a with
    | ⟨0, _⟩ => by show r.val = 0 + r.val; omega
    | ⟨1, _⟩ => by show k.val = 0 + k.val; omega)

/-- Column 64 of a 65-column array as a flat array, read at r. -/
theorem col64_at (y : FVec Ideal S100000x65 .f32) (r : Fin 100000) :
    shapeCast S100000 (extractStridedSlice S100000x1 ![0, 64] y slices_S100000x65_S100000x1_0_64) shapeCasts_S100000x1_S100000 (ix1 r)
      = y (ix2 r (⟨64, by omega⟩ : Fin 65)) := by
  refine (shapeCast_apply _ shapeCasts_S100000x1_S100000 (ix1 r) (ix2 r (0 : Fin 1)) ?_).trans ?_
  · rewrite [Shape.rowMajor_val_two, Shape.rowMajor_val_one]; show r.val * 1 + 0 = r.val; omega
  · exact extractStridedSlice_apply ![0, 64] y slices_S100000x65_S100000x1_0_64 (ix2 r (0 : Fin 1))
      (ix2 r (⟨64, by omega⟩ : Fin 65)) (fun a => match a with
      | ⟨0, _⟩ => by show r.val = 0 + r.val; omega
      | ⟨1, _⟩ => by show 64 = 64 + 0; omega)

/-- One over max(d, 1) of a flat array d, as a column, read at (r, 0). -/
theorem invCol_at (d : FVec Ideal S100000 .f32) (r : Fin 100000) :
    shapeCast S100000x1
        (Host.divf (broadcastInDim S100000 ![] bcast_S_S100000 (constant (F := Ideal) S_ .f32 0x3F800000#32))
          (maximumf d (broadcastInDim S100000 ![] bcast_S_S100000 (constant (F := Ideal) S_ .f32 0x3F800000#32))))
        shapeCasts_S100000_S100000x1 (ix2 r (0 : Fin 1))
      = Ideal.div Cert.Spec.oneLit (max (d (ix1 r)) Cert.Spec.oneLit) := by
  refine (shapeCast_apply _ shapeCasts_S100000_S100000x1 (ix2 r (0 : Fin 1)) (ix1 r) ?_).trans ?_
  · rewrite [Shape.rowMajor_val_two, Shape.rowMajor_val_one]; show r.val = r.val * 1 + 0; omega
  · rfl

/-- The messages at (r, k) are column k of the scattered array. -/
theorem msgArr_at (x : FVec Ideal S100000x64 .f32) (ei : IVec S2x1200000 32) (r : Fin 100000) (k : Fin 64) :
    msgArr x ei (ix2 r k) = scattered x ei (ix2 r (⟨k.val, by omega⟩ : Fin 65)) := by
  unfold msgArr
  generalize scattered x ei = y
  exact slice64_at y r k

/-- The in-degree of node r is column 64 of the scattered array. -/
theorem degArr_at (x : FVec Ideal S100000x64 .f32) (ei : IVec S2x1200000 32) (r : Fin 100000) :
    degArr x ei (ix1 r) = scattered x ei (ix2 r (⟨64, by omega⟩ : Fin 65)) := by
  unfold degArr
  generalize scattered x ei = y
  exact col64_at y r

/-- The column at (r, 0) is one over the in-degree of r, the degree read as at least one. -/
theorem invDegCol_at (x : FVec Ideal S100000x64 .f32) (ei : IVec S2x1200000 32) (r : Fin 100000) :
    invDegCol x ei (ix2 r (0 : Fin 1))
      = Ideal.div Cert.Spec.oneLit (max (scattered x ei (ix2 r (⟨64, by omega⟩ : Fin 65))) Cert.Spec.oneLit) := by
  rw [← degArr_at]
  unfold invDegCol
  generalize degArr x ei = d
  exact invCol_at d r

end AtIdeal

/-! ## The same stages in the reference

The reference program gathers the same rows at the same start indices and scatters at the same destinations: its
stages are these functions, term for term. -/

section SameAsReference

variable {F : FTy → Type} [FloatOps F]

theorem srcIdx_eq_ref (ei : IVec S2x1200000 32) : srcIdx ei = Cert.ReferenceIdeal.Read.val_main_v9 (F := F) ei := rfl

theorem gathered_eq_ref (x : FVec F S100000x64 .f32) (ei : IVec S2x1200000 32) :
    gathered x ei = Cert.ReferenceIdeal.Read.val_main_v10 (F := F) x ei := rfl

theorem dstIdx_eq_ref (ei : IVec S2x1200000 32) : dstIdx ei = Cert.ReferenceIdeal.Read.val_main_v12 (F := F) ei := rfl

end SameAsReference

end Cert.HostBefore

end
-- ==== Proof.HostBetween.lean ====
/-
  Between the two launches: the blocks' statistics folded into one scale and one shift per column.

  The first launch leaves, for each of the 25 blocks of rows, the block's column sums and column sums of
  squares (`st[t,0,c]`, `st[t,1,c]`).  The host then sums them over the blocks (from the initial value `0.0`),
  divides by the row count to get each column's mean `μ` and mean of squares, takes the variance as the mean of
  squares less `μ·μ`, its inverse square root `s` after adding `ε`, and prepares the row `γ·s` (the scale), the
  row `β − μ·γ·s` (the shift), and the gate's matrix in the other float format.

  Layer 1 (any float instance): each prepared array is an explicit function of the statistics and the
  parameters — the printed operations composed — and the host stretch writes exactly that function's value.
  Layer 2 (the ideal instance): those functions read at an index are the formulas above on the extended reals;
  the reduction is a sum over the 25 blocks, the slices, reshapes and broadcasts only re-index, and the format
  change is the identity.
-/
import proofs.«123687_j59407987638626_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws
import proofs.«123687_j59407987638626_2_alg».proof.Proof.Spec

set_option maxRecDepth 16384

noncomputable section

namespace Cert.HostBetween

open Idealize.ShloMosaic Idealize.ShloMosaic.ValueIdx Idealize.ShloMosaic.TcCoe Idealize.SL.Sem
open Cert.KernelIdeal Cert.KernelIdeal.Gen

/-! ## Layer 1: the prepared arrays as functions of the statistics and the parameters -/

section AnyInstance
variable {F : FTy → Type} [FloatOps F]

/-- The statistics summed over the blocks, from `0.0`: row 0 the column sums, row 1 the column sums of squares. -/
def sumStat (st : (⟨S25x2x64, .f32⟩ : BufTy).Contents (Elt F)) : (⟨S2x64, .f32⟩ : BufTy).Contents (Elt F) :=
  Host.reduceAdd st (constant S_ .f32 0x00000000#32) reducesTo_S25x2x64_S2x64_d0 h_S_

/-- The row count `100000.0` in every column. -/
def nRow : (⟨S64, .f32⟩ : BufTy).Contents (Elt F) :=
  broadcastInDim S64 ![] bcast_S_S64 (constant S_ .f32 0x47C35000#32)

/-- Each column's mean. -/
def muRow (st : (⟨S25x2x64, .f32⟩ : BufTy).Contents (Elt F)) : (⟨S64, .f32⟩ : BufTy).Contents (Elt F) :=
  Host.divf (shapeCast S64 (extractStridedSlice S1x64 ![0, 0] (sumStat st) slices_S2x64_S1x64_0_0) shapeCasts_S1x64_S64) nRow

/-- Each column's variance: the mean of squares less the squared mean. -/
def varRow (st : (⟨S25x2x64, .f32⟩ : BufTy).Contents (Elt F)) : (⟨S64, .f32⟩ : BufTy).Contents (Elt F) :=
  subf (Host.divf (shapeCast S64 (extractStridedSlice S1x64 ![1, 0] (sumStat st) slices_S2x64_S1x64_1_0) shapeCasts_S1x64_S64) nRow)
    (mulf (muRow st) (muRow st))

/-- Each column's inverse standard deviation, `ε` added under the root. -/
def invStdRow (st : (⟨S25x2x64, .f32⟩ : BufTy).Contents (Elt F)) : (⟨S64, .f32⟩ : BufTy).Contents (Elt F) :=
  Host.rsqrt (addf (varRow st) (broadcastInDim S64 ![] bcast_S_S64 (constant S_ .f32 0x3727C5AC#32)))

/-- The scale `γ·s`, as a row. -/
def scaleRow (st : (⟨S25x2x64, .f32⟩ : BufTy).Contents (Elt F)) (γ : (⟨S64, .f32⟩ : BufTy).Contents (Elt F)) :
    (⟨S1x64, .f32⟩ : BufTy).Contents (Elt F) :=
  shapeCast S1x64 (mulf γ (invStdRow st)) shapeCasts_S64_S1x64

/-- The shift `β − μ·γ·s`, as a row. -/
def shiftRow (st : (⟨S25x2x64, .f32⟩ : BufTy).Contents (Elt F)) (γ β : (⟨S64, .f32⟩ : BufTy).Contents (Elt F)) :
    (⟨S1x64, .f32⟩ : BufTy).Contents (Elt F) :=
  shapeCast S1x64 (subf β (mulf (mulf (muRow st) γ) (invStdRow st))) shapeCasts_S64_S1x64

/-- The gate's matrix in the other float format. -/
def cOther (C : (⟨S64x64, .f32⟩ : BufTy).Contents (Elt F)) : (⟨S64x64, .bf16⟩ : BufTy).Contents (Elt F) :=
  truncf .bf16 C bitsLt_bf16_f32

variable (Wv : Valuation τ sig (Elt F))

/-- The host stretch leaves the scale row in its buffer. -/
theorem between_v43 :
    StableHlo.after (hostOps1 (F := F)) Wv (Proc.devRef .tc main_v43)
      = scaleRow (Wv (Proc.devRef .tc main_v27_1)) (Wv (Proc.devRef .tc main_arg4)) := by
  dsimp only [hostOps1]
  after_results_simp
  rfl

/-- The host stretch leaves the shift row in its buffer. -/
theorem between_v47 :
    StableHlo.after (hostOps1 (F := F)) Wv (Proc.devRef .tc main_v47)
      = shiftRow (Wv (Proc.devRef .tc main_v27_1)) (Wv (Proc.devRef .tc main_arg4)) (Wv (Proc.devRef .tc main_arg5)) := by
  dsimp only [hostOps1]
  after_results_simp
  rfl

/-- The host stretch leaves the gate's matrix, in the other format, in its buffer. -/
theorem between_v48 :
    StableHlo.after (hostOps1 (F := F)) Wv (Proc.devRef .tc main_v48) = cOther (Wv (Proc.devRef .tc main_arg6)) := by
  dsimp only [hostOps1]
  after_results_simp
  rfl

/-- No operation of the host stretch writes the first launch's main output. -/
theorem between_v27_0 :
    StableHlo.after (hostOps1 (F := F)) Wv (Proc.devRef .tc main_v27_0) = Wv (Proc.devRef .tc main_v27_0) := by
  dsimp only [hostOps1]
  after_results_simp

end AnyInstance

/-! ## Layer 2: the prepared arrays read at an index, at the ideal instance -/

section AtIdeal

/-- The blocks' column sums added up, from `0.0`. -/
abbrev sum0 (st : (⟨S25x2x64, .f32⟩ : BufTy).Contents (Elt Ideal)) (c : Fin 64) : EReal :=
  Spec.zeroLit + ∑ t : Fin 25, st (ix3 t (0 : Fin 2) c)
/-- The blocks' column sums of squares added up, from `0.0`. -/
abbrev sum1 (st : (⟨S25x2x64, .f32⟩ : BufTy).Contents (Elt Ideal)) (c : Fin 64) : EReal :=
  Spec.zeroLit + ∑ t : Fin 25, st (ix3 t (1 : Fin 2) c)
/-- The column's mean `μ`. -/
abbrev mu (st : (⟨S25x2x64, .f32⟩ : BufTy).Contents (Elt Ideal)) (c : Fin 64) : EReal :=
  Ideal.div (sum0 st c) Spec.nLit
/-- The column's inverse standard deviation `s`. -/
abbrev invStd (st : (⟨S25x2x64, .f32⟩ : BufTy).Contents (Elt Ideal)) (c : Fin 64) : EReal :=
  Ideal.rsqrt (Ideal.div (sum1 st c) Spec.nLit - mu st c * mu st c + Spec.epsLit)

/-- The sum over the blocks at `(j, c)`: the initial value plus the 25 blocks' entries. -/
theorem sumStat_at (st : (⟨S25x2x64, .f32⟩ : BufTy).Contents (Elt Ideal)) (j : Fin 2) (c : Fin 64) :
    sumStat (F := Ideal) st (ix2 j c) = Spec.zeroLit + ∑ t : Fin 25, st (ix3 t j c) := by
  unfold sumStat
  simp only [Host.reduceAdd, Ideal.hostReduceAdd_def]
  rw [Ideal.hostReduceAdd_single reducesTo_S25x2x64_S2x64_d0 (by decide)]
  refine congrArg (_ + ·) (Finset.sum_congr rfl fun k _ => ?_)
  exact congrArg st (funext fun a => Fin.ext (by match a with | ⟨0, _⟩ => rfl | ⟨1, _⟩ => rfl | ⟨2, _⟩ => rfl))

/-- Row 0 of a `2 × 64` array, flattened, at `c`. -/
theorem row0_at (x : (⟨S2x64, .f32⟩ : BufTy).Contents (Elt Ideal)) (c : Fin 64) :
    shapeCast S64 (extractStridedSlice S1x64 ![0, 0] x slices_S2x64_S1x64_0_0) shapeCasts_S1x64_S64 (ix1 c)
      = x (ix2 (0 : Fin 2) c) := by
  rw [shapeCast_apply _ shapeCasts_S1x64_S64 (ix1 c) (ix2 (0 : Fin 1) c)
    (by rewrite [Shape.rowMajor_val_two, Shape.rowMajor_val_one]; show 0 * 64 + c.val = c.val; omega)]
  exact extractStridedSlice_apply ![0, 0] x slices_S2x64_S1x64_0_0 (ix2 (0 : Fin 1) c) (ix2 (0 : Fin 2) c) (fun a => match a with
    | ⟨0, _⟩ => by show (0 : Nat) = 0 + 0; omega
    | ⟨1, _⟩ => by show c.val = 0 + c.val; omega)

/-- Row 1 of a `2 × 64` array, flattened, at `c`. -/
theorem row1_at (x : (⟨S2x64, .f32⟩ : BufTy).Contents (Elt Ideal)) (c : Fin 64) :
    shapeCast S64 (extractStridedSlice S1x64 ![1, 0] x slices_S2x64_S1x64_1_0) shapeCasts_S1x64_S64 (ix1 c)
      = x (ix2 (1 : Fin 2) c) := by
  rw [shapeCast_apply _ shapeCasts_S1x64_S64 (ix1 c) (ix2 (0 : Fin 1) c)
    (by rewrite [Shape.rowMajor_val_two, Shape.rowMajor_val_one]; show 0 * 64 + c.val = c.val; omega)]
  exact extractStridedSlice_apply ![1, 0] x slices_S2x64_S1x64_1_0 (ix2 (0 : Fin 1) c) (ix2 (1 : Fin 2) c) (fun a => match a with
    | ⟨0, _⟩ => by show (1 : Nat) = 1 + 0; omega
    | ⟨1, _⟩ => by show c.val = 0 + c.val; omega)

/-- A length-64 vector as a `1 × 64` row, at `(0, c)`. -/
theorem toRow_at (x : (⟨S64, .f32⟩ : BufTy).Contents (Elt Ideal)) (c : Fin 64) :
    shapeCast S1x64 x shapeCasts_S64_S1x64 (ix2 (0 : Fin 1) c) = x (ix1 c) :=
  shapeCast_apply x shapeCasts_S64_S1x64 (ix2 (0 : Fin 1) c) (ix1 c)
    (by rewrite [Shape.rowMajor_val_two, Shape.rowMajor_val_one]; show c.val = 0 * 64 + c.val; omega)

/-- A scalar broadcast to a length-64 vector reads the scalar everywhere. -/
theorem splat_at (v : (⟨S_, .f32⟩ : BufTy).Contents (Elt Ideal)) (i : S64.Idx) :
    broadcastInDim S64 ![] bcast_S_S64 v i = v ix0 :=
  broadcastInDim_apply _ bcast_S_S64 v i ix0 (fun a => a.elim0)

/-- The row count, in every column. -/
theorem nRow_at (i : S64.Idx) : nRow (F := Ideal) i = Spec.nLit := by
  unfold nRow
  rw [splat_at]
  rfl

/-- The mean row at `c`. -/
theorem muRow_at (st : (⟨S25x2x64, .f32⟩ : BufTy).Contents (Elt Ideal)) (c : Fin 64) :
    muRow (F := Ideal) st (ix1 c) = mu st c := by
  unfold muRow
  show Ideal.div _ _ = _
  rw [row0_at, nRow_at, sumStat_at]

/-- The variance row at `c`. -/
theorem varRow_at (st : (⟨S25x2x64, .f32⟩ : BufTy).Contents (Elt Ideal)) (c : Fin 64) :
    varRow (F := Ideal) st (ix1 c) = Ideal.div (sum1 st c) Spec.nLit - mu st c * mu st c := by
  unfold varRow
  show Ideal.div _ _ - muRow (F := Ideal) st (ix1 c) * muRow (F := Ideal) st (ix1 c) = _
  rw [row1_at, nRow_at, sumStat_at, muRow_at]

/-- The inverse standard deviation row at `c`. -/
theorem invStdRow_at (st : (⟨S25x2x64, .f32⟩ : BufTy).Contents (Elt Ideal)) (c : Fin 64) :
    invStdRow (F := Ideal) st (ix1 c) = invStd st c := by
  unfold invStdRow
  show Ideal.rsqrt (varRow (F := Ideal) st (ix1 c) + _) = _
  rw [varRow_at, splat_at]
  rfl

/-- The scale row at `(0, c)` is `γ[c]·s`. -/
theorem scaleRow_at (st : (⟨S25x2x64, .f32⟩ : BufTy).Contents (Elt Ideal)) (γ : (⟨S64, .f32⟩ : BufTy).Contents (Elt Ideal))
    (c : Fin 64) : scaleRow (F := Ideal) st γ (ix2 (0 : Fin 1) c) = γ (ix1 c) * invStd st c := by
  unfold scaleRow
  rw [toRow_at]
  show γ (ix1 c) * invStdRow (F := Ideal) st (ix1 c) = _
  rw [invStdRow_at]

/-- The shift row at `(0, c)` is `β[c] − μ·γ[c]·s`. -/
theorem shiftRow_at (st : (⟨S25x2x64, .f32⟩ : BufTy).Contents (Elt Ideal)) (γ β : (⟨S64, .f32⟩ : BufTy).Contents (Elt Ideal))
    (c : Fin 64) :
    shiftRow (F := Ideal) st γ β (ix2 (0 : Fin 1) c) = β (ix1 c) - mu st c * γ (ix1 c) * invStd st c := by
  unfold shiftRow
  rw [toRow_at]
  show β (ix1 c) - muRow (F := Ideal) st (ix1 c) * γ (ix1 c) * invStdRow (F := Ideal) st (ix1 c) = _
  rw [muRow_at, invStdRow_at]

/-- The format change is the identity on extended reals. -/
theorem cOther_at (C : (⟨S64x64, .f32⟩ : BufTy).Contents (Elt Ideal)) (k c : Fin 64) :
    cOther (F := Ideal) C (ix2 k c) = C (ix2 k c) := rfl

end AtIdeal

end Cert.HostBetween

end
-- ==== Proof.KernelFold.lean ====
/-
  The result buffer, walked back through the four segments of @main.

  At the last segment's exit the result holds what the second launch's write-backs leave: the gate
  array of the linear stage's array, the scale row, the shift row and the gate matrix as that launch
  found them.  The host operations between the launches made the two rows from the per-block
  statistics and from γ, β, left the linear stage's array alone and passed the gate matrix through a
  change of format; the first launch left the linear stage's array and the statistics as functions
  of what IT found; and the host operations before it made those from the arguments, writing no
  argument.
-/
import proofs.«123687_j59407987638626_2_alg».proof.Proof.Gen.KernelIdeal.Frame
import proofs.«123687_j59407987638626_2_alg».proof.Proof.KernelArrays
import proofs.«123687_j59407987638626_2_alg».proof.Proof.KernelGateArray
import proofs.«123687_j59407987638626_2_alg».proof.Proof.HostBefore
import proofs.«123687_j59407987638626_2_alg».proof.Proof.HostBetween

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Cert.HostBefore Cert.HostBetween

variable (m : (ℓ : Loc nD τ sig) → Buf (Elt Ideal) ℓ) (ρ : Dev nD → PrngReg)

/-! ## What the first launch finds -/

theorem entry0_arg0 (c : Dev nD) : V1 m ρ c main_arg0 = m ((c : Thread nD τ).loc main_arg0) :=
  before_arg0 (W0 m ρ c)

theorem entry0_msg (c : Dev nD) :
    V1 m ρ c main_v16 = msgArr (F := Ideal) (m ((c : Thread nD τ).loc main_arg0)) (m ((c : Thread nD τ).loc main_arg1)) :=
  before_v16 (W0 m ρ c)

theorem entry0_invDeg (c : Dev nD) :
    V1 m ρ c main_v23 = invDegCol (F := Ideal) (m ((c : Thread nD τ).loc main_arg0)) (m ((c : Thread nD τ).loc main_arg1)) :=
  before_v23 (W0 m ρ c)

theorem entry0_wT (c : Dev nD) : V1 m ρ c main_v25 = wT (F := Ideal) (m ((c : Thread nD τ).loc main_arg2)) :=
  before_v25 (W0 m ρ c)

theorem entry0_bRow (c : Dev nD) : V1 m ρ c main_v26 = bRow (F := Ideal) (m ((c : Thread nD τ).loc main_arg3)) :=
  before_v26 (W0 m ρ c)

/-! ## What it leaves -/

/-- The linear stage's array at the first launch's exit. -/
theorem exit0_lin (c : Dev nD) :
    W2 m ρ c (Proc.devRef .tc main_v27_0)
      = G5 (m ((c : Thread nD τ).loc main_arg0))
          (msgArr (F := Ideal) (m ((c : Thread nD τ).loc main_arg0)) (m ((c : Thread nD τ).loc main_arg1)))
          (invDegCol (F := Ideal) (m ((c : Thread nD τ).loc main_arg0)) (m ((c : Thread nD τ).loc main_arg1)))
          (wT (F := Ideal) (m ((c : Thread nD τ).loc main_arg2))) (bRow (F := Ideal) (m ((c : Thread nD τ).loc main_arg3))) := by
  refine (W2_arr m ρ c 5).trans ?_
  rw [final5 (V1 m ρ) c, entry0_arg0, entry0_msg, entry0_invDeg, entry0_wT, entry0_bRow]

/-- The statistics at the first launch's exit are what its write-backs leave. -/
theorem exit0_stats (c : Dev nD) :
    W2 m ρ c (Proc.devRef .tc main_v27_1) = (dat0 (V1 m ρ) c).arrAt 6 cfg0.N :=
  W2_arr m ρ c 6

/-- γ, β and the gate matrix pass through the first launch and the operations before it. -/
theorem exit0_arg4 (c : Dev nD) : W2 m ρ c (Proc.devRef .tc main_arg4) = m ((c : Thread nD τ).loc main_arg4) :=
  (W2_of_ne m ρ c main_arg4 (by decide)).trans (before_arg4 (W0 m ρ c))
theorem exit0_arg5 (c : Dev nD) : W2 m ρ c (Proc.devRef .tc main_arg5) = m ((c : Thread nD τ).loc main_arg5) :=
  (W2_of_ne m ρ c main_arg5 (by decide)).trans (before_arg5 (W0 m ρ c))
theorem exit0_arg6 (c : Dev nD) : W2 m ρ c (Proc.devRef .tc main_arg6) = m ((c : Thread nD τ).loc main_arg6) :=
  (W2_of_ne m ρ c main_arg6 (by decide)).trans (before_arg6 (W0 m ρ c))

/-! ## What the second launch finds, and the result -/

/-- The result buffer at the end of @main. -/
theorem result_fold (c : Dev nD) :
    W4 m ρ c (Proc.devRef .tc main_v49)
      = G4 (G5 (m ((c : Thread nD τ).loc main_arg0))
            (msgArr (F := Ideal) (m ((c : Thread nD τ).loc main_arg0)) (m ((c : Thread nD τ).loc main_arg1)))
            (invDegCol (F := Ideal) (m ((c : Thread nD τ).loc main_arg0)) (m ((c : Thread nD τ).loc main_arg1)))
            (wT (F := Ideal) (m ((c : Thread nD τ).loc main_arg2))) (bRow (F := Ideal) (m ((c : Thread nD τ).loc main_arg3))))
          (scaleRow (F := Ideal) ((dat0 (V1 m ρ) c).arrAt 6 cfg0.N) (m ((c : Thread nD τ).loc main_arg4)))
          (shiftRow (F := Ideal) ((dat0 (V1 m ρ) c).arrAt 6 cfg0.N) (m ((c : Thread nD τ).loc main_arg4)) (m ((c : Thread nD τ).loc main_arg5)))
          (cOther (F := Ideal) (m ((c : Thread nD τ).loc main_arg6))) := by
  refine (W4_arr m ρ c 4).trans ?_
  rw [final4 (V3 m ρ) c]
  have e0 : V3 m ρ c main_v27_0 = W2 m ρ c (Proc.devRef .tc main_v27_0) := between_v27_0 (W2 m ρ c)
  have e1 : V3 m ρ c main_v43 = scaleRow (F := Ideal) (W2 m ρ c (Proc.devRef .tc main_v27_1)) (W2 m ρ c (Proc.devRef .tc main_arg4)) :=
    between_v43 (W2 m ρ c)
  have e2 : V3 m ρ c main_v47 = shiftRow (F := Ideal) (W2 m ρ c (Proc.devRef .tc main_v27_1)) (W2 m ρ c (Proc.devRef .tc main_arg4)) (W2 m ρ c (Proc.devRef .tc main_arg5)) :=
    between_v47 (W2 m ρ c)
  have e3 : V3 m ρ c main_v48 = cOther (F := Ideal) (W2 m ρ c (Proc.devRef .tc main_arg6)) := between_v48 (W2 m ρ c)
  rw [e0, e1, e2, e3, exit0_lin, exit0_stats, exit0_arg4, exit0_arg5, exit0_arg6]

end Cert.KernelIdeal.Hand

end
-- ==== Proof.KernelStatsArray.lean ====
/-
  From blocks to the array of statistics.

  At grid point `t` the first launch's body also leaves, in a [1,2,64] staging buffer, the column sums of its
  block of the linear stage (row 0) and the column sums of squares (row 1): two stores, one per row.  The
  pipeline writes that buffer back as block `t` of a [25,2,64] array, and the 25 blocks tile it (block `t` is
  the slab of first coordinate `t`).  So the array ends as one function of the arrays the launch found:
  entry (t, 0, c) is the sum over the 4000 rows of block `t` of the linear stage's column `c`, entry (t, 1, c)
  the sum of its squares.
-/
import proofs.«123687_j59407987638626_2_alg».proof.Proof.Gen.KernelIdeal.Frame
import proofs.«123687_j59407987638626_2_alg».proof.Proof.KernelArrays
import proofs.«123687_j59407987638626_2_alg».proof.Proof.KernelStats
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The statistics as a function of whole arrays: for block `t` and column `c`, the sum over the block's 4000 rows of
    the linear stage (`j = 0`) or of its square (`j = 1`). -/
def statArr (x ms : S100000x64.Idx → EReal) (d : S100000x1.Idx → EReal) (w : S64x64.Idx → EReal) (b : S1x64.Idx → EReal)
    (t : Fin 25) (j : Fin 2) (c : Fin 64) : EReal :=
  if j.val = 0 then ∑ y : Fin 4000, linArr x ms d w b (Cert.Spec.row t y) c
  else ∑ y : Fin 4000, linArr x ms d w b (Cert.Spec.row t y) c * linArr x ms d w b (Cert.Spec.row t y) c

/-- The statistics as an array. -/
abbrev G6 (x ms : S100000x64.Idx → EReal) (d : S100000x1.Idx → EReal) (w : S64x64.Idx → EReal) (b : S1x64.Idx → EReal) :
    S25x2x64.Idx → EReal := fun i => statArr x ms d w b (i 0) (i 1) (i 2)

/-- Row 0 of block `t` holds the block's column sums of the linear stage. -/
theorem G6_sum (x ms : S100000x64.Idx → EReal) (d : S100000x1.Idx → EReal) (w : S64x64.Idx → EReal) (b : S1x64.Idx → EReal)
    (t : Fin 25) (c : Fin 64) :
    G6 x ms d w b (ix3 t (0 : Fin 2) c) = ∑ y : Fin 4000, linArr x ms d w b (Cert.Spec.row t y) c := by
  show statArr x ms d w b t (0 : Fin 2) c = _
  unfold statArr
  exact if_pos rfl

/-- Row 1 of block `t` holds the block's column sums of squares of the linear stage. -/
theorem G6_sq (x ms : S100000x64.Idx → EReal) (d : S100000x1.Idx → EReal) (w : S64x64.Idx → EReal) (b : S1x64.Idx → EReal)
    (t : Fin 25) (c : Fin 64) :
    G6 x ms d w b (ix3 t (1 : Fin 2) c)
      = ∑ y : Fin 4000, linArr x ms d w b (Cert.Spec.row t y) c * linArr x ms d w b (Cert.Spec.row t y) c := by
  show statArr x ms d w b t (1 : Fin 2) c = _
  unfold statArr
  exact if_neg (by decide)

/-- The statistics' staging buffer after the body, entry by entry, over any blocks: the two stores each fill one row,
    row 0 with the column sums of the body's linear stage and row 1 with the column sums of its squares. -/
theorem out6_at (x0 x1 : Vec Ideal S4000x64 .f32) (x2 : Vec Ideal S4000x1 .f32) (x3 : Vec Ideal S64x64 .bf16)
    (x4 : Vec Ideal S1x64 .f32) (i : S1x2x64.Idx) :
    out0_6 (F := Ideal) x0 x1 x2 x3 x4 i
      = if (i 1).val = 0 then ∑ y : Fin 4000, k0_pay1 (F := Ideal) x0 x1 x2 x3 x4 (ix2 y (i 2))
        else ∑ y : Fin 4000, k0_pay1 (F := Ideal) x0 x1 x2 x3 x4 (ix2 y (i 2)) * k0_pay1 (F := Ideal) x0 x1 x2 x3 x4 (ix2 y (i 2)) := by
  unfold out0_6
  simp only [View.ld_unit_zero (S := S4000x64) hz2, View.ld_unit_zero (S := S4000x1) hz2, View.ld_unit_zero (S := S64x64) hz2,
    View.ld_unit_zero (S := S1x64) hz2]
  refine View.canon_apply_of_pieces (Val := Elt Ideal) (S := S1x2x64) (e := .f32)
    (fun i : S1x2x64.Idx => if (i 1).val = 0 then ∑ y : Fin 4000, k0_pay1 (F := Ideal) x0 x1 x2 x3 x4 (ix2 y (i 2))
      else ∑ y : Fin 4000, k0_pay1 (F := Ideal) x0 x1 x2 x3 x4 (ix2 y (i 2)) * k0_pay1 (F := Ideal) x0 x1 x2 x3 x4 (ix2 y (i 2)))
    _ ?_ i (cover0_6 _ _ i)
  intro p hp
  rcases List.mem_cons.mp hp with rfl | hp
  · -- the later store: the sums of squares, through the rectangle at offset (0, 1, 0)
    intro (x : S1x1x64.Idx)
    obtain ⟨a, b, c, rfl⟩ : ∃ (a b : Fin 1) (c : Fin 64), x = ix3 a b c := ⟨x 0, x 1, x 2, eq_ix3 x⟩
    obtain rfl : a = 0 := Subsingleton.elim _ _
    obtain rfl : b = 0 := Subsingleton.elim _ _
    have h1 : ((r0_5.emb (ix3 (0 : Fin 1) (0 : Fin 1) c)) 1).val = 1 := rfl
    have h2 : (r0_5.emb (ix3 (0 : Fin 1) (0 : Fin 1) c)) 2 = c := Fin.ext (by show 0 + 1 * c.val = c.val; omega)
    show k0_pay3 (F := Ideal) x0 x1 x2 x3 x4 (ix3 (0 : Fin 1) (0 : Fin 1) c)
      = if ((r0_5.emb (ix3 (0 : Fin 1) (0 : Fin 1) c)) 1).val = 0 then _ else _
    rw [if_neg (by rw [h1]; decide), h2, sq_block]
  · -- the earlier store: the sums, through the rectangle at offset (0, 0, 0)
    obtain rfl := List.mem_singleton.mp hp
    intro (x : S1x1x64.Idx)
    obtain ⟨a, b, c, rfl⟩ : ∃ (a b : Fin 1) (c : Fin 64), x = ix3 a b c := ⟨x 0, x 1, x 2, eq_ix3 x⟩
    obtain rfl : a = 0 := Subsingleton.elim _ _
    obtain rfl : b = 0 := Subsingleton.elim _ _
    have h1 : ((r0_4.emb (ix3 (0 : Fin 1) (0 : Fin 1) c)) 1).val = 0 := rfl
    have h2 : (r0_4.emb (ix3 (0 : Fin 1) (0 : Fin 1) c)) 2 = c := Fin.ext (by show 0 + 1 * c.val = c.val; omega)
    show k0_pay2 (F := Ideal) x0 x1 x2 x3 x4 (ix3 (0 : Fin 1) (0 : Fin 1) c)
      = if ((r0_4.emb (ix3 (0 : Fin 1) (0 : Fin 1) c)) 1).val = 0 then _ else _
    rw [if_pos h1, h2, sum_block]

/-- What point `t` writes back to the statistics' array is block `t` of that array function. -/
theorem flushed6_eq (c : Dev nD) (t : Fin cfg0.N) :
    (dat0 V c).flushed 6 t = ((cfg0.win 6).blk t).view.read (Elt Ideal)
      (G6 (V c main_arg0) (V c main_v16) (V c main_v23) (V c main_v25) (V c main_v26)) := by
  show (cfg0.win 6).cut (grid0.coords t) ((dat0 V c).after 6 t) = _
  rw [after0_6]
  funext j
  obtain ⟨a, j', c', rfl⟩ : ∃ (a : Fin 1) (j' : Fin 2) (c' : Fin 64), j = ix3 a j' c' := ⟨j 0, j 1, j 2, eq_ix3 j⟩
  obtain rfl : a = 0 := Subsingleton.elim _ _
  obtain ⟨-, -, -, -, -, -, -, -, -, -, -, -, e0, e1, e2⟩ := idx_facts0 t
  have hemb : ((cfg0.win 6).blk t).view.emb (ix3 (0 : Fin 1) j' c') = (ix3 (blockOf0 t) j' c' : S25x2x64.Idx) :=
    funext fun a => Fin.ext (by
      match a with
      | ⟨0, _⟩ => show win0_6.index t (0 : Fin 3) * 1 + 1 * 0 = t.val; rw [e0]; omega
      | ⟨1, _⟩ => show win0_6.index t (1 : Fin 3) * 2 + 1 * j'.val = j'.val; rw [e1]; omega
      | ⟨2, _⟩ => show win0_6.index t (2 : Fin 3) * 64 + 1 * c'.val = c'.val; rw [e2]; omega)
  refine (out6_at (iblk0 V c 0 t) (iblk0 V c 1 t) (iblk0 V c 2 t) (iblk0 V c 3 t) (iblk0 V c 4 t) (ix3 (0 : Fin 1) j' c')).trans ?_
  show _ = G6 (V c main_arg0) (V c main_v16) (V c main_v23) (V c main_v25) (V c main_v26) (((cfg0.win 6).blk t).view.emb (ix3 (0 : Fin 1) j' c'))
  rw [hemb]
  show (if j'.val = 0 then _ else _) = statArr (V c main_arg0) (V c main_v16) (V c main_v23) (V c main_v25) (V c main_v26) (blockOf0 t) j' c'
  unfold statArr
  by_cases h : j'.val = 0
  · rw [if_pos h, if_pos h]
    exact Finset.sum_congr rfl fun y _ => lin_at_point V c t y c'
  · rw [if_neg h, if_neg h]
    exact Finset.sum_congr rfl fun y _ => by rw [lin_at_point V c t y c']

/-- An index of the array is in point `t`'s block iff each coordinate is in the block's range on its axis. -/
theorem mem_blk6 (t : Fin cfg0.N) (i : S25x2x64.Idx) :
    i ∈ ((cfg0.win 6).blk t).view.set ↔ ∀ a : Fin 3, win0_6.index t a * S1x2x64.size a ≤ (i a).val ∧ (i a).val < win0_6.index t a * S1x2x64.size a + S1x2x64.size a := by
  show i ∈ ((View.whole main_v27_1).slice (win0_6.rect t)).set ↔ _
  rw [View.set_slice_whole, Rect.mem_set_unit]
  exact Iff.rfl

/-- Every index is in some point's block: the slab of its first coordinate. -/
theorem cover6 (i : S25x2x64.Idx) : ∃ t : Fin cfg0.N, (cfg0.win 6).flush t = true ∧ i ∈ ((cfg0.win 6).blk t).view.set := by
  have hi0 : (i 0).val < 25 := (i 0).isLt
  have hi1 : (i 1).val < 2 := (i 1).isLt
  have hi2 : (i 2).val < 64 := (i 2).isLt
  have hN : cfg0.N = 25 := N_0
  refine ⟨⟨(i 0).val, by rw [hN]; omega⟩, flush0_6 _, ?_⟩
  rw [mem_blk6]
  obtain ⟨-, -, -, -, -, -, -, -, -, -, -, -, e0, e1, e2⟩ := idx_facts0 ⟨(i 0).val, by rw [hN]; omega⟩
  intro a
  match a with
  | ⟨0, _⟩ =>
    show win0_6.index _ (0 : Fin 3) * 1 ≤ (i 0).val ∧ (i 0).val < win0_6.index _ (0 : Fin 3) * 1 + 1
    rw [e0]; show (i 0).val * 1 ≤ (i 0).val ∧ (i 0).val < (i 0).val * 1 + 1; omega
  | ⟨1, _⟩ =>
    show win0_6.index _ (1 : Fin 3) * 2 ≤ (i 1).val ∧ (i 1).val < win0_6.index _ (1 : Fin 3) * 2 + 2
    rw [e1]; omega
  | ⟨2, _⟩ =>
    show win0_6.index _ (2 : Fin 3) * 64 ≤ (i 2).val ∧ (i 2).val < win0_6.index _ (2 : Fin 3) * 64 + 64
    rw [e2]; omega

/-- The statistics' array after the first launch. -/
theorem final6 (c : Dev nD) :
    (dat0 V c).arrAt 6 cfg0.N = G6 (V c main_arg0) (V c main_v16) (V c main_v23) (V c main_v25) (V c main_v26) :=
  (dat0 V c).arrAt_eq_of_cover 6 _ (fun t _ => flushed6_eq V c t) cover6

end Cert.KernelIdeal.Hand

end
-- ==== Proof.GateRead.lean ====
/-
  The second launch's array function is the specification's gate over the block-wise normalisation.

  The launch scales and shifts column k by scale[k] = γ[k]·s[k] and shift[k] = β[k] − μ[k]·γ[k]·s[k], where the
  mean μ and the inverse standard deviation s come from the blocks' statistics added up over the 25 blocks.
  When entry (t, 0, k) of the statistics is block t's column sum and entry (t, 1, k) its column sum of squares,
  those totals are the column's sum and sum of squares taken block by block, so scale and shift are the
  specification's, the scaled and shifted row is its normalised row, and the gate on top is its gate.
-/
import proofs.«123687_j59407987638626_2_alg».proof.Proof.KernelGateArray
import proofs.«123687_j59407987638626_2_alg».proof.Proof.HostBetween
import proofs.«123687_j59407987638626_2_alg».proof.Proof.Spec

set_option maxRecDepth 16384

noncomputable section

namespace Cert.KernelIdeal.Hand

open Cert.KernelIdeal Idealize.ShloMosaic Idealize.ShloMosaic.ValueIdx

section Stats
variable (lin : Fin 100000 → Fin 64 → EReal) (st : S25x2x64.Idx → EReal)
  (hst0 : ∀ (t : Fin 25) (c : Fin 64), st (ix3 t (0 : Fin 2) c) = ∑ y : Fin 4000, lin (Cert.Spec.row t y) c)
  (hst1 : ∀ (t : Fin 25) (c : Fin 64), st (ix3 t (1 : Fin 2) c) = ∑ y : Fin 4000, lin (Cert.Spec.row t y) c * lin (Cert.Spec.row t y) c)

include hst0 in
/-- The blocks' column sums added up are the column's sum, block by block. -/
theorem sum0_eq (c : Fin 64) : Cert.HostBetween.sum0 st c = Cert.Spec.sumK lin c := by
  unfold Cert.Spec.sumK
  show Cert.Spec.zeroLit + ∑ t : Fin 25, st (ix3 t (0 : Fin 2) c) = _
  exact congrArg (Cert.Spec.zeroLit + ·) (Finset.sum_congr rfl fun t _ => hst0 t c)

include hst1 in
/-- The blocks' column sums of squares added up are the column's sum of squares, block by block. -/
theorem sum1_eq (c : Fin 64) : Cert.HostBetween.sum1 st c = Cert.Spec.sqK lin c := by
  unfold Cert.Spec.sqK
  show Cert.Spec.zeroLit + ∑ t : Fin 25, st (ix3 t (1 : Fin 2) c) = _
  exact congrArg (Cert.Spec.zeroLit + ·) (Finset.sum_congr rfl fun t _ => hst1 t c)

include hst0 in
/-- So the mean is the specification's … -/
theorem mu_eq (c : Fin 64) : Cert.HostBetween.mu st c = Cert.Spec.meanK lin c := by
  unfold Cert.Spec.meanK
  show Ideal.div (Cert.HostBetween.sum0 st c) Cert.Spec.nLit = _
  rw [sum0_eq lin st hst0 c]

include hst0 hst1 in
/-- … and so is the inverse standard deviation. -/
theorem invStd_eq (c : Fin 64) : Cert.HostBetween.invStd st c = Cert.Spec.invStdK lin c := by
  unfold Cert.Spec.invStdK Cert.Spec.varK
  show Ideal.rsqrt (Ideal.div (Cert.HostBetween.sum1 st c) Cert.Spec.nLit
      - Cert.HostBetween.mu st c * Cert.HostBetween.mu st c + Cert.Spec.epsLit) = _
  rw [sum1_eq lin st hst1 c, mu_eq lin st hst0 c]

end Stats

/-- **The second launch's array function read as the specification**: the gate of the block-wise normalisation of the
    linear stage. -/
theorem gate_read (lin : Fin 100000 → Fin 64 → EReal) (h : S100000x64.Idx → EReal)
    (hh : ∀ (r : Fin 100000) (k : Fin 64), h (ix2 r k) = lin r k)
    (st : S25x2x64.Idx → EReal)
    (hst0 : ∀ (t : Fin 25) (c : Fin 64), st (ix3 t (0 : Fin 2) c) = ∑ y : Fin 4000, lin (Cert.Spec.row t y) c)
    (hst1 : ∀ (t : Fin 25) (c : Fin 64), st (ix3 t (1 : Fin 2) c) = ∑ y : Fin 4000, lin (Cert.Spec.row t y) c * lin (Cert.Spec.row t y) c)
    (γ β : S64.Idx → EReal) (C : S64x64.Idx → EReal) (r : Fin 100000) (c : Fin 64) :
    gateArr h (Cert.HostBetween.scaleRow (F := Ideal) st γ) (Cert.HostBetween.shiftRow (F := Ideal) st γ β)
        (Cert.HostBetween.cOther (F := Ideal) C) r c
      = Cert.Spec.gated (Cert.Spec.bnK lin γ β) C r c := by
  -- the scaled and shifted entry is the specification's normalised entry
  have ey : ∀ k : Fin 64,
      h (ix2 r k) * Cert.HostBetween.scaleRow (F := Ideal) st γ (ix2 (0 : Fin 1) k)
          + Cert.HostBetween.shiftRow (F := Ideal) st γ β (ix2 (0 : Fin 1) k)
        = Cert.Spec.bnK lin γ β r k := fun k => by
    rw [Cert.HostBetween.scaleRow_at, Cert.HostBetween.shiftRow_at, hh, invStd_eq lin st hst0 hst1 k, mu_eq lin st hst0 k]
    rfl
  unfold gateArr Cert.Spec.gated
  rw [ey c]
  refine congrArg (fun s => Ideal.div Cert.Spec.oneLit (Cert.Spec.oneLit + Ideal.exp (-s)) * _)
    (Finset.sum_congr rfl fun k _ => ?_)
  rw [ey k, Cert.HostBetween.cOther_at]

end Cert.KernelIdeal.Hand

end
-- ==== Proof.NormAlgebra.lean ====
/-
  Batch normalisation of an `N × D` array of REAL numbers, written two ways, is one function.

  With `μ = (Σ_r h_r)/N`, the mean squared deviation `(Σ_r (h_r − μ)²)/N` equals `(Σ_r h_r²)/N − μ²`;
  the sums over the `N = 100000` rows may be taken block by block (25 blocks of 4000 consecutive rows);
  and `(h − μ)·s·γ + β = h·(γ·s) + (β − μ·γ·s)`.  All of it is an identity of real numbers.  On the
  extended reals it needs every quantity to be real (distributivity fails at the infinities), and
  `s = (v + ε)^(−1/2)` is real because `v ≥ 0` (a mean of squares) and `ε > 0`.

  Also here: the mean of the incoming messages and the linear map send real data to real data, and
  multiplying by the reciprocal of `max d 1` is dividing by it.
-/
import proofs.«123687_j59407987638626_2_alg».proof.Proof.Consts
import proofs.«123687_j59407987638626_2_alg».proof.Proof.Spec

noncomputable section

namespace Cert.NormAlgebra

open Idealize.ShloMosaic Idealize.ShloMosaic.ValueIdx Cert.Spec
open scoped BigOperators

/-! ## Sums of reals inside the extended reals -/

/-- A finite sum of reals, read in the extended reals, is the sum of their readings. -/
theorem coe_sum {ι : Type*} (s : Finset ι) (f : ι → ℝ) :
    (∑ i ∈ s, (f i : EReal)) = ((∑ i ∈ s, f i : ℝ) : EReal) := by
  classical
  refine Finset.induction_on s ?_ ?_
  · simp
  · intro a s ha ih
    rw [Finset.sum_insert ha, Finset.sum_insert ha, ih, EReal.coe_add]

/-! ## The rows, block by block -/

/-- The rows are the pairs (block, row within the block): `r = 4000·t + y` with `y < 4000`. -/
def blockEquiv : Fin 25 × Fin 4000 ≃ Fin 100000 where
  toFun p := row p.1 p.2
  invFun r := (⟨r.val / 4000, by have := r.isLt; omega⟩, ⟨r.val % 4000, by omega⟩)
  left_inv := by
    rintro ⟨t, y⟩
    have ht := t.isLt
    have hy := y.isLt
    refine Prod.ext (Fin.ext ?_) (Fin.ext ?_)
    · show (t.val * 4000 + y.val) / 4000 = t.val
      omega
    · show (t.val * 4000 + y.val) % 4000 = y.val
      omega
  right_inv := by
    intro r
    refine Fin.ext ?_
    show r.val / 4000 * 4000 + r.val % 4000 = r.val
    omega

/-- A sum over the rows is the sum over the blocks of the sums within each block. -/
theorem sum_blocks {M : Type*} [AddCommMonoid M] (f : Fin 100000 → M) :
    ∑ t : Fin 25, ∑ y : Fin 4000, f (row t y) = ∑ r : Fin 100000, f r := by
  rw [← Equiv.sum_comp blockEquiv f, Fintype.sum_prod_type]
  rfl

/-! ## The real statistics -/

/-- A column's mean, over the reals. -/
def μR (x : Fin 100000 → Fin 64 → ℝ) (c : Fin 64) : ℝ := (∑ r, x r c) / 100000

/-- A column's mean squared deviation, over the reals. -/
def vR (x : Fin 100000 → Fin 64 → ℝ) (c : Fin 64) : ℝ :=
  (∑ r, (x r c - μR x c) * (x r c - μR x c)) / 100000

/-- A mean of squares is not negative. -/
theorem vR_nonneg (x : Fin 100000 → Fin 64 → ℝ) (c : Fin 64) : 0 ≤ vR x c :=
  div_nonneg (Finset.sum_nonneg fun r _ => mul_self_nonneg _) (by norm_num)

/-- The mean squared deviation is the mean of the squares less the square of the mean:
    `Σ (x_r − μ)² = Σ x_r² − 2μ Σ x_r + N μ²` and `μ = (Σ x_r)/N`. -/
theorem vR_eq (x : Fin 100000 → Fin 64 → ℝ) (c : Fin 64) :
    vR x c = (∑ r, x r c * x r c) / 100000 - μR x c * μR x c := by
  have h1 : ∀ m : ℝ, ∑ r : Fin 100000, (x r c - m) * (x r c - m)
      = ∑ r, x r c * x r c - 2 * m * ∑ r, x r c + 100000 * (m * m) := by
    intro m
    have h2 : ∀ r : Fin 100000, (x r c - m) * (x r c - m) = x r c * x r c - 2 * m * x r c + m * m :=
      fun r => by ring
    rw [Finset.sum_congr rfl fun r _ => h2 r, Finset.sum_add_distrib, Finset.sum_sub_distrib,
      ← Finset.mul_sum, Finset.sum_const, Finset.card_univ, Fintype.card_fin, nsmul_eq_mul]
    push_cast
    ring
  rw [vR, h1, μR]
  field_simp
  ring

/-! ## The extended-real statistics of real data are the real ones -/

/-- Division by the row count. -/
theorem div_nLit (a : ℝ) : Ideal.div (a : EReal) nLit = ((a / 100000 : ℝ) : EReal) := by
  rw [Consts.nLit_eq, Ideal.div_coe (by norm_num), ← EReal.coe_mul, mul_one_div]

/-- The inverse square root of a positive real. -/
theorem rsqrt_pos_coe {a : ℝ} (ha : 0 < a) : Ideal.rsqrt (a : EReal) = (((Real.sqrt a)⁻¹ : ℝ) : EReal) := by
  rw [Ideal.rsqrt_coe, if_neg (not_lt.mpr ha.le), if_neg ha.ne']

section
variable (x : Fin 100000 → Fin 64 → ℝ) (c : Fin 64)

theorem mean_coe : mean (fun r c => (x r c : EReal)) c = (μR x c : EReal) := by
  rw [mean, Consts.zeroLit_eq, zero_add, coe_sum, div_nLit, μR]

theorem var_coe : var (fun r c => (x r c : EReal)) c = (vR x c : EReal) := by
  rw [var, mean_coe, Consts.zeroLit_eq, zero_add]
  simp only [← EReal.coe_sub, ← EReal.coe_mul]
  rw [coe_sum, div_nLit, vR]

theorem sumK_coe : sumK (fun r c => (x r c : EReal)) c = ((∑ r, x r c : ℝ) : EReal) := by
  rw [sumK, Consts.zeroLit_eq, zero_add, sum_blocks (fun r => ((x r c : ℝ) : EReal)), coe_sum]

theorem sqK_coe : sqK (fun r c => (x r c : EReal)) c = ((∑ r, x r c * x r c : ℝ) : EReal) := by
  rw [sqK, Consts.zeroLit_eq, zero_add]
  simp only [← EReal.coe_mul]
  rw [sum_blocks (fun r => ((x r c * x r c : ℝ) : EReal)), coe_sum]

theorem meanK_coe : meanK (fun r c => (x r c : EReal)) c = (μR x c : EReal) := by
  rw [meanK, sumK_coe, div_nLit, μR]

theorem varK_coe : varK (fun r c => (x r c : EReal)) c = (vR x c : EReal) := by
  rw [varK, sqK_coe, div_nLit, meanK_coe, ← EReal.coe_mul, ← EReal.coe_sub, vR_eq]

end

/-- The normalisation of real data, centred first, as a real number. -/
theorem bn_coe (x : Fin 100000 → Fin 64 → ℝ) (γ β : SD.Idx → EReal) (r : Fin 100000) (c : Fin 64)
    (g b e : ℝ) (hg : γ (ix1 c) = (g : EReal)) (hb : β (ix1 c) = (b : EReal)) (he : 0 < e)
    (hE : epsLit = (e : EReal)) :
    bn (fun r c => (x r c : EReal)) γ β r c
      = (((x r c - μR x c) * (Real.sqrt (vR x c + e))⁻¹ * g + b : ℝ) : EReal) := by
  have hpos : 0 < vR x c + e := by have := vR_nonneg x c; linarith
  rw [bn, mean_coe, var_coe, hg, hb, hE, ← EReal.coe_add (vR x c) e, rsqrt_pos_coe hpos]
  simp only [← EReal.coe_sub, ← EReal.coe_mul, ← EReal.coe_add]

/-- The normalisation of real data, as one multiply and one add, as a real number. -/
theorem bnK_coe (x : Fin 100000 → Fin 64 → ℝ) (γ β : SD.Idx → EReal) (r : Fin 100000) (c : Fin 64)
    (g b e : ℝ) (hg : γ (ix1 c) = (g : EReal)) (hb : β (ix1 c) = (b : EReal)) (he : 0 < e)
    (hE : epsLit = (e : EReal)) :
    bnK (fun r c => (x r c : EReal)) γ β r c
      = ((x r c * (g * (Real.sqrt (vR x c + e))⁻¹)
          + (b - μR x c * g * (Real.sqrt (vR x c + e))⁻¹) : ℝ) : EReal) := by
  have hpos : 0 < vR x c + e := by have := vR_nonneg x c; linarith
  rw [bnK, scaleK, shiftK, invStdK, varK_coe, meanK_coe, hg, hb, hE, ← EReal.coe_add (vR x c) e,
    rsqrt_pos_coe hpos]
  simp only [← EReal.coe_sub, ← EReal.coe_mul, ← EReal.coe_add]

/-- On real data the two ways of writing the normalisation agree. -/
theorem bnK_eq_bn (h : Fin 100000 → Fin 64 → EReal) (γ β : Cert.Spec.SD.Idx → EReal)
    (hh : ∀ r c, ∃ v : ℝ, h r c = (v : EReal))
    (hγ : ∀ c : Fin 64, ∃ v : ℝ, γ (ValueIdx.ix1 c) = (v : EReal))
    (hβ : ∀ c : Fin 64, ∃ v : ℝ, β (ValueIdx.ix1 c) = (v : EReal))
    (r : Fin 100000) (c : Fin 64) : Cert.Spec.bnK h γ β r c = Cert.Spec.bn h γ β r c := by
  choose x hx using hh
  obtain rfl : h = fun r c => (x r c : EReal) := by funext r c; exact hx r c
  obtain ⟨g, hg⟩ := hγ c
  obtain ⟨b, hb⟩ := hβ c
  obtain ⟨e, he, hE⟩ := Consts.epsLit_pos
  rw [bnK_coe x γ β r c g b e hg hb he hE, bn_coe x γ β r c g b e hg hb he hE]
  congr 1
  ring

/-! ## The mean message and the linear map keep real data real -/

/-- The larger of a real and one is a real that is not zero. -/
theorem max_oneLit (v : ℝ) : max (v : EReal) oneLit = ((max v 1 : ℝ) : EReal) ∧ max v 1 ≠ 0 := by
  refine ⟨?_, ?_⟩
  · rw [Consts.oneLit_eq, ← EReal.coe_one]
    exact (EReal.coe_strictMono.monotone.map_max).symm
  · have : (1 : ℝ) ≤ max v 1 := le_max_right v 1
    linarith

/-- Multiplying by the reciprocal of `max d 1` is dividing by it: both are the product with the real
    `1 / max d 1`. -/
theorem mul_inv_max (a d : EReal) (hd : ∃ v : ℝ, 0 ≤ v ∧ d = (v : EReal)) :
    a * Ideal.div Cert.Spec.oneLit (max d Cert.Spec.oneLit) = Ideal.div a (max d Cert.Spec.oneLit) := by
  obtain ⟨v, _, rfl⟩ := hd
  obtain ⟨hm, hne⟩ := max_oneLit v
  rw [hm, Ideal.div_coe hne, Ideal.div_coe hne, Consts.oneLit_eq, one_mul]

/-- A linear map with real coefficients sends a real row to a real number. -/
theorem lin_real (a : Fin 100000 → Fin 64 → EReal) (W : Cert.Spec.SDxD.Idx → EReal) (b : Cert.Spec.SD.Idx → EReal)
    (ha : ∀ r k, ∃ v : ℝ, a r k = (v : EReal)) (hW : ∀ i, ∃ v : ℝ, W i = (v : EReal))
    (hb : ∀ i, ∃ v : ℝ, b i = (v : EReal)) (r : Fin 100000) (c : Fin 64) :
    ∃ v : ℝ, Cert.Spec.lin a W b r c = (v : EReal) := by
  choose a' ha' using ha
  choose W' hW' using hW
  choose b' hb' using hb
  refine ⟨(∑ k : Fin 64, a' r k * W' (ix2 c k)) + b' (ix1 c), ?_⟩
  rw [lin]
  simp only [ha', hW', hb', ← EReal.coe_mul]
  rw [coe_sum, ← EReal.coe_add]

/-- The root feature plus the mean message is real when the features, the messages and the degrees are. -/
theorem combine_real (x M : Cert.Spec.SNxD.Idx → EReal) (Dg : Cert.Spec.SN.Idx → EReal)
    (hx : ∀ i, ∃ v : ℝ, x i = (v : EReal)) (hM : ∀ i, ∃ v : ℝ, M i = (v : EReal))
    (hD : ∀ i, ∃ v : ℝ, 0 ≤ v ∧ Dg i = (v : EReal)) (r : Fin 100000) (k : Fin 64) :
    ∃ v : ℝ, Cert.Spec.combine x M Dg r k = (v : EReal) := by
  obtain ⟨xv, hxv⟩ := hx (ix2 r k)
  obtain ⟨mv, hmv⟩ := hM (ix2 r k)
  obtain ⟨dv, _, hdv⟩ := hD (ix1 r)
  obtain ⟨hm, hne⟩ := max_oneLit dv
  refine ⟨xv + mv * (1 / max dv 1), ?_⟩
  rw [combine, agg, hxv, hmv, hdv, hm, Ideal.div_coe hne, ← EReal.coe_mul, ← EReal.coe_add]

end Cert.NormAlgebra

end
-- ==== Proof.Bridge.lean ====
/-
  Two ways of writing the layer's linear stage and its gated normalisation give the same numbers.

  Multiplying the summed messages by the reciprocal `1 / max(deg, 1)` is dividing them by `max(deg, 1)`
  when the degree is a nonnegative real; the weights may be given already transposed and the bias as a
  row.  So the linear stage written with the reciprocal, the transposed weights and the bias row is
  `lin` of `combine`.  On real data that stage is real-valued, and once it is, the normalisation taken
  block by block is the normalisation, so the gated results agree.
-/
import proofs.«123687_j59407987638626_2_alg».proof.Proof.Spec
import proofs.«123687_j59407987638626_2_alg».proof.Proof.Consts
import proofs.«123687_j59407987638626_2_alg».proof.Proof.NormAlgebra

noncomputable section

namespace Cert.Bridge

open Idealize.ShloMosaic Idealize.ShloMosaic.ValueIdx
open scoped BigOperators

/-- The linear stage with the messages times the reciprocal degree, the weights transposed and the bias as a row is
    the linear stage of the root feature plus the mean message. -/
theorem lin_bridge (x M : Cert.Spec.SNxD.Idx → EReal) (Dg : Cert.Spec.SN.Idx → EReal) (W : Cert.Spec.SDxD.Idx → EReal)
    (b : Cert.Spec.SD.Idx → EReal)
    (ms : Cert.Spec.SNxD.Idx → EReal) (d : (⟨2, ![100000, 1]⟩ : Shape).Idx → EReal) (w : Cert.Spec.SDxD.Idx → EReal)
    (bb : (⟨2, ![1, 64]⟩ : Shape).Idx → EReal)
    (hms : ∀ (r : Fin 100000) (k : Fin 64), ms (ix2 r k) = M (ix2 r k))
    (hd : ∀ r : Fin 100000, d (ix2 r (0 : Fin 1)) = Ideal.div Cert.Spec.oneLit (max (Dg (ix1 r)) Cert.Spec.oneLit))
    (hw : ∀ k c : Fin 64, w (ix2 k c) = W (ix2 c k))
    (hbb : ∀ c : Fin 64, bb (ix2 (0 : Fin 1) c) = b (ix1 c))
    (hDg : ∀ r : Fin 100000, ∃ v : ℝ, 0 ≤ v ∧ Dg (ix1 r) = (v : EReal)) (r : Fin 100000) (c : Fin 64) :
    (∑ k : Fin 64, (x (ix2 r k) + ms (ix2 r k) * d (ix2 r (0 : Fin 1))) * w (ix2 k c)) + bb (ix2 (0 : Fin 1) c)
      = Cert.Spec.lin (Cert.Spec.combine x M Dg) W b r c := by
  rw [Cert.Spec.lin, hbb c, hd r]
  refine congrArg (· + b (ix1 c)) (Finset.sum_congr rfl fun k _ => ?_)
  rw [hms r k, hw k c, Cert.NormAlgebra.mul_inv_max _ _ (hDg r), Cert.Spec.combine, Cert.Spec.agg]

/-- On real data the gate of the normalisation taken block by block is the gate of the normalisation. -/
theorem gated_bridge (h : Fin 100000 → Fin 64 → EReal) (γ β : Cert.Spec.SD.Idx → EReal) (C : Cert.Spec.SDxD.Idx → EReal)
    (hh : ∀ r c, ∃ v : ℝ, h r c = (v : EReal)) (hγ : ∀ c : Fin 64, ∃ v : ℝ, γ (ix1 c) = (v : EReal))
    (hβ : ∀ c : Fin 64, ∃ v : ℝ, β (ix1 c) = (v : EReal))
    (r : Fin 100000) (c : Fin 64) :
    Cert.Spec.gated (Cert.Spec.bnK h γ β) C r c = Cert.Spec.gated (Cert.Spec.bn h γ β) C r c := by
  have e : Cert.Spec.bnK h γ β = Cert.Spec.bn h γ β :=
    funext fun r => funext fun c => Cert.NormAlgebra.bnK_eq_bn h γ β hh hγ hβ r c
  rw [e]

/-- On real data, with nonnegative degrees, the linear stage is real-valued. -/
theorem layer_real (x M : Cert.Spec.SNxD.Idx → EReal) (Dg : Cert.Spec.SN.Idx → EReal) (W : Cert.Spec.SDxD.Idx → EReal)
    (b : Cert.Spec.SD.Idx → EReal)
    (hx : ∀ i, ∃ v : ℝ, x i = (v : EReal)) (hM : ∀ i, ∃ v : ℝ, M i = (v : EReal))
    (hDg : ∀ i, ∃ v : ℝ, 0 ≤ v ∧ Dg i = (v : EReal)) (hW : ∀ i, ∃ v : ℝ, W i = (v : EReal))
    (hb : ∀ i, ∃ v : ℝ, b i = (v : EReal)) (r : Fin 100000) (c : Fin 64) :
    ∃ v : ℝ, Cert.Spec.lin (Cert.Spec.combine x M Dg) W b r c = (v : EReal) :=
  Cert.NormAlgebra.lin_real (Cert.Spec.combine x M Dg) W b
    (fun r k => Cert.NormAlgebra.combine_real x M Dg hx hM hDg r k) hW hb r c

end Cert.Bridge

end
-- ==== Proof.ScatterSum.lean ====
/-
  A scatter-add at the exact instance, read at an index.

  Every update row e carries one start index t e (read signed off the index array); row e of the
  updates is added to row t e of the operand when 0 ≤ t e < N and dropped otherwise.  So an element
  (r, c) of the result is the operand's element plus the sum, over the rows e with t e = r, of the
  updates' element (e, c).  Scattering an E × (C + 1) array whose last column is constant therefore
  scatters the first C columns and, in the last column, the constant vector.
-/
import Idealize.ShloMosaic.PureOps.Ideal
import Idealize.ShloMosaic.Lib.ValueIdx
import Idealize.ShloMosaic.Lib.Pipeline.Value
import proofs.«123687_j59407987638626_2_alg».proof.KernelIdeal
import proofs.«123687_j59407987638626_2_alg».proof.ReferenceIdeal

noncomputable section

open scoped BigOperators

namespace Cert.ScatterSum

open Idealize.ShloMosaic Idealize.ShloMosaic.ValueIdx

/-! ## Where an update lands, for any dimension numbers -/

/-- An update lands on i exactly when, on every axis, start plus window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  next h =>
    rw [Option.some.injEq]
    constructor
    · intro hf a
      have := congrFun hf a
      have h1 := h a
      have : (d.start j idx a + (d.window j a : Int)).toNat = (i a).val := congrArg Fin.val this
      omega
    · intro hf
      funext a
      refine Fin.ext ?_
      have := hf a
      show (d.start j idx a + (d.window j a : Int)).toNat = (i a).val
      omega
  next h =>
    constructor
    · intro hf; cases hf
    · intro hf
      exfalso
      apply h
      intro a
      rw [hf a]
      exact ⟨Int.natCast_nonneg _, by exact_mod_cast (i a).isLt⟩

/-! ## Rows scattered whole: rank-2 updates -/

/-- The dimension numbers that add row e of an E × C array of updates to the row of an N × C operand that
    entry e of an E × 1 index array names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w)

theorem rowDims_start0 (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowDims_start1 (j : (⟨2, ![E, C]⟩ : Shape).Idx) : (rowDims N E C wf).start j idx 1 = 0 := by
  unfold ScatterDims.start
  rw [dif_neg (show ¬ (1 : Fin 2) ∈ (rowDims N E C wf).scatterDimsToOperandDims from
    (by decide : ¬ (1 : Fin 2) ∈ ([0] : List (Fin 2))))]

theorem rowDims_window0 (j : (⟨2, ![E, C]⟩ : Shape).Idx) : (rowDims N E C wf).window j 0 = 0 := by
  unfold ScatterDims.window
  rw [dif_neg (show ¬ (0 : Fin 2) ∈ (rowDims N E C wf).sKept from
    (by decide : ¬ (0 : Fin 2) ∈ (List.finRange 2).filter (fun a : Fin 2 => a ∉ ([0] : List (Fin 2)))))]

theorem rowDims_window1 (e : Fin E) (c : Fin C) : (rowDims N E C wf).window (ix2 e c) 1 = c.val := by
  unfold ScatterDims.window
  rw [dif_pos (show (1 : Fin 2) ∈ (rowDims N E C wf).sKept from
    (by decide : (1 : Fin 2) ∈ (List.finRange 2).filter (fun a : Fin 2 => a ∉ ([0] : List (Fin 2)))))]
  rfl

end Rows

section Rows
variable {N E C w : Nat} (wf : ScatterDims.WF ⟨2, ![N, C]⟩ ⟨2, ![E, 1]⟩ ⟨2, ![E, C]⟩ [1] [0] [0] 1)
  (idx : IVec ⟨2, ![E, 1]⟩ w)

/-- Update element (e, c) lands on (r, c') exactly when row e's start index is r and the columns agree. -/
theorem rowDims_lands (e : Fin E) (c : Fin C) (r : Fin N) (c' : Fin C) :
    (rowDims N E C wf).resultIdx? (ix2 e c) idx = some (ix2 r c') ↔
      (idx (ix2 e (0 : Fin 1))).toInt = (r.val : Int) ∧ c' = c := by
  rw [resultIdx?_eq_some_iff]
  constructor
  · intro h
    have h0 : (rowDims N E C wf).start (ix2 e c) idx 0 + ((rowDims N E C wf).window (ix2 e c) 0 : Int) = (r.val : Int) :=
      h 0
    have h1 : (rowDims N E C wf).start (ix2 e c) idx 1 + ((rowDims N E C wf).window (ix2 e c) 1 : Int) = (c'.val : Int) :=
      h 1
    rw [rowDims_start0, rowDims_window0] at h0
    rw [rowDims_start1, rowDims_window1] at h1
    refine ⟨?_, Fin.ext ?_⟩
    · simpa using h0
    · omega
  · rintro ⟨h0, rfl⟩ a
    match a with
    | ⟨0, _⟩ =>
      show (rowDims N E C wf).start (ix2 e c') idx 0 + ((rowDims N E C wf).window (ix2 e c') 0 : Int) = (r.val : Int)
      rw [rowDims_start0, rowDims_window0, h0]; simp
    | ⟨1, _⟩ =>
      show (rowDims N E C wf).start (ix2 e c') idx 1 + ((rowDims N E C wf).window (ix2 e c') 1 : Int) = (c'.val : Int)
      rw [rowDims_start1, rowDims_window1]; simp

/-- The scatter-add of whole rows at element (r, c): the operand's element plus the updates' column c summed over
    the rows whose start index is r. -/
theorem rowDims_scatterAdd (x : (⟨2, ![N, C]⟩ : Shape).Idx → EReal) (upd : (⟨2, ![E, C]⟩ : Shape).Idx → EReal)
    (r : Fin N) (c : Fin C) :
    Ideal.hostScatterAdd (rowDims N E C wf) x idx upd (ix2 r c) =
      x (ix2 r c) + ∑ e : Fin E, if (idx (ix2 e (0 : Fin 1))).toInt = (r.val : Int) then upd (ix2 e c) else 0 := by
  unfold Ideal.hostScatterAdd
  congr 1
  rw [Finset.sum_filter, sum_idx2]
  refine Finset.sum_congr rfl fun e _ => ?_
  simp only [rowDims_lands]
  by_cases ht : (idx (ix2 e (0 : Fin 1))).toInt = (r.val : Int)
  · simp [ht]
  · simp [ht]

end Rows

/-! ## Entries scattered one by one: rank-1 updates -/

/-- A rank-1 index set is its one coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers that add entry e of a length-E vector of updates to the entry of a length-N operand that
    entry e of an E × 1 index array names. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Entries
variable {N E w : Nat} (wf : ScatterDims.WF ⟨1, ![N]⟩ ⟨2, ![E, 1]⟩ ⟨1, ![E]⟩ [] [0] [0] 1)
  (idx : IVec ⟨2, ![E, 1]⟩ w)

theorem vecDims_start0 (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecDims_window0 (j : (⟨1, ![E]⟩ : Shape).Idx) : (vecDims N E wf).window j 0 = 0 := by
  unfold ScatterDims.window
  rw [dif_neg (show ¬ (0 : Fin 1) ∈ (vecDims N E wf).sKept from
    (by decide : ¬ (0 : Fin 1) ∈ (List.finRange 1).filter (fun a : Fin 1 => a ∉ ([0] : List (Fin 1)))))]

/-- Update entry e lands on entry r exactly when its start index is r. -/
theorem vecDims_lands (e : Fin E) (r : Fin N) :
    (vecDims N E wf).resultIdx? (ix1 e) idx = some (ix1 r) ↔ (idx (ix2 e (0 : Fin 1))).toInt = (r.val : Int) := by
  rw [resultIdx?_eq_some_iff]
  constructor
  · intro h
    have h0 : (vecDims N E wf).start (ix1 e) idx 0 + ((vecDims N E wf).window (ix1 e) 0 : Int) = (r.val : Int) := h 0
    rw [vecDims_start0, vecDims_window0] at h0
    simpa using h0
  · intro h0 a
    match a with
    | ⟨0, _⟩ =>
      show (vecDims N E wf).start (ix1 e) idx 0 + ((vecDims N E wf).window (ix1 e) 0 : Int) = (r.val : Int)
      rw [vecDims_start0, vecDims_window0, h0]; simp

/-- The scatter-add of single entries at entry r: the operand's entry plus the updates summed over the entries whose
    start index is r. -/
theorem vecDims_scatterAdd (x : (⟨1, ![N]⟩ : Shape).Idx → EReal) (upd : (⟨1, ![E]⟩ : Shape).Idx → EReal) (r : Fin N) :
    Ideal.hostScatterAdd (vecDims N E wf) x idx upd (ix1 r) =
      x (ix1 r) + ∑ e : Fin E, if (idx (ix2 e (0 : Fin 1))).toInt = (r.val : Int) then upd (ix1 e) else 0 := by
  unfold Ideal.hostScatterAdd
  congr 1
  rw [Finset.sum_filter, sum_idx1]
  refine Finset.sum_congr rfl fun e _ => ?_
  simp only [vecDims_lands]

end Entries

/-! ## A finite sum of reals is a real -/

theorem sum_real_nonneg {ι : Type*} (s : Finset ι) (f : ι → EReal) (hf : ∀ i ∈ s, ∃ v : ℝ, 0 ≤ v ∧ f i = (v : EReal)) :
    ∃ v : ℝ, 0 ≤ v ∧ ∑ i ∈ s, f i = (v : EReal) := by
  classical
  induction s using Finset.induction_on with
  | empty => exact ⟨0, le_refl _, by simp⟩
  | insert a s ha ih =>
    obtain ⟨v, hv0, hv⟩ := ih fun i hi => hf i (Finset.mem_insert_of_mem hi)
    obtain ⟨x, hx0, hx⟩ := hf a (Finset.mem_insert_self a s)
    refine ⟨x + v, add_nonneg hx0 hv0, ?_⟩
    rw [Finset.sum_insert ha, hv, hx, EReal.coe_add]

theorem sum_real {ι : Type*} (s : Finset ι) (f : ι → EReal) (hf : ∀ i ∈ s, ∃ v : ℝ, f i = (v : EReal)) :
    ∃ v : ℝ, ∑ i ∈ s, f i = (v : EReal) := by
  classical
  induction s using Finset.induction_on with
  | empty => exact ⟨0, by simp⟩
  | insert a s ha ih =>
    obtain ⟨v, hv⟩ := ih fun i hi => hf i (Finset.mem_insert_of_mem hi)
    obtain ⟨x, hx⟩ := hf a (Finset.mem_insert_self a s)
    refine ⟨x + v, ?_⟩
    rw [Finset.sum_insert ha, hv, hx, EReal.coe_add]

/-! ## The concatenation of the features with the column of ones, read at an index -/

section Programs
variable [Cert.KernelIdeal.Facts₀]

/-- A column below 64 of the concatenation is the features' column. -/
theorem concat_feature (g : Cert.KernelIdeal.S1200000x64.Idx → EReal) (o : Cert.KernelIdeal.S1200000x1.Idx → EReal)
    (e : Fin 1200000) (k : Fin 64) :
    concatenate Cert.KernelIdeal.S1200000x65 1 [⟨Cert.KernelIdeal.S1200000x64, g⟩, ⟨Cert.KernelIdeal.S1200000x1, o⟩]
        Cert.KernelIdeal.Facts₀.concatenates_S1200000x64_S1200000x1_S1200000x65_d1 (ix2 e (⟨k.val, by omega⟩ : Fin 65))
      = g (ix2 e k) := by
  refine concatenate_apply_piece (t := Cert.KernelIdeal.S1200000x65) (1 : Fin 2)
    [⟨Cert.KernelIdeal.S1200000x64, g⟩, ⟨Cert.KernelIdeal.S1200000x1, o⟩] _ _ 0 Nat.zero_lt_two Cert.KernelIdeal.S1200000x64 g rfl rfl 0 rfl (ix2 e k) ?_ ?_
  · intro b hb
    match b with
    | ⟨0, _⟩ => rfl
    | ⟨1, _⟩ => exact absurd rfl hb
  · simp

/-- Column 64 of the concatenation is the last piece's one column. -/
theorem concat_last (g : Cert.KernelIdeal.S1200000x64.Idx → EReal) (o : Cert.KernelIdeal.S1200000x1.Idx → EReal)
    (e : Fin 1200000) :
    concatenate Cert.KernelIdeal.S1200000x65 1 [⟨Cert.KernelIdeal.S1200000x64, g⟩, ⟨Cert.KernelIdeal.S1200000x1, o⟩]
        Cert.KernelIdeal.Facts₀.concatenates_S1200000x64_S1200000x1_S1200000x65_d1 (ix2 e (⟨64, by omega⟩ : Fin 65))
      = o (ix2 e (0 : Fin 1)) := by
  refine concatenate_apply_piece (t := Cert.KernelIdeal.S1200000x65) (1 : Fin 2)
    [⟨Cert.KernelIdeal.S1200000x64, g⟩, ⟨Cert.KernelIdeal.S1200000x1, o⟩] _ _ 1 Nat.one_lt_two Cert.KernelIdeal.S1200000x1 o rfl rfl 64 rfl
    (ix2 e (0 : Fin 1)) ?_ ?_
  · intro b hb
    match b with
    | ⟨0, _⟩ => rfl
    | ⟨1, _⟩ => exact absurd rfl hb
  · rfl

end Programs

/-! ## The two programs' scatters -/

section Main
variable [Cert.KernelIdeal.Facts₀] [Cert.ReferenceIdeal.Facts₀]

omit [Cert.ReferenceIdeal.Facts₀] in
/-- The scatter of the 65 columns is a scatter of whole rows … -/
theorem scatter65_eq : Cert.KernelIdeal.scatter_S100000x65_S1200000x1_S1200000x65_1_0_0_1 =
    rowDims 100000 1200000 65 Cert.KernelIdeal.Facts₀.scatter_S100000x65_S1200000x1_S1200000x65_1_0_0_1_wf := rfl
omit [Cert.KernelIdeal.Facts₀] in
/-- … and so is the scatter of the 64 feature columns; -/
theorem scatter64_eq : Cert.ReferenceIdeal.scatter_S100000x64_S1200000x1_S1200000x64_1_0_0_1 =
    rowDims 100000 1200000 64 Cert.ReferenceIdeal.Facts₀.scatter_S100000x64_S1200000x1_S1200000x64_1_0_0_1_wf := rfl
omit [Cert.KernelIdeal.Facts₀] in
/-- the scatter of the vector of ones is a scatter of single entries. -/
theorem scatter1_eq : Cert.ReferenceIdeal.scatter_S100000_S1200000x1_S1200000_n_0_0_1 =
    vecDims 100000 1200000 Cert.ReferenceIdeal.Facts₀.scatter_S100000_S1200000x1_S1200000_n_0_0_1_wf := rfl

omit [Cert.ReferenceIdeal.Facts₀] in
/-- The 65-column scatter at a node and a column: the sum of that column of the concatenation over the node's
    incoming edges. -/
theorem scatter65_apply (z65 : Cert.KernelIdeal.S100000x65.Idx → EReal) (hz65 : ∀ i, z65 i = 0)
    (idx : IVec Cert.KernelIdeal.S1200000x1 32) (upd : Cert.KernelIdeal.S1200000x65.Idx → EReal) (r : Fin 100000) (c : Fin 65) :
    Host.scatterAdd (F := Ideal) (φ := .f32) Cert.KernelIdeal.scatter_S100000x65_S1200000x1_S1200000x65_1_0_0_1 z65 idx upd
        (ix2 r c)
      = ∑ e : Fin 1200000, if (idx (ix2 e (0 : Fin 1))).toInt = (r.val : Int) then upd (ix2 e c) else 0 := by
  show Ideal.hostScatterAdd Cert.KernelIdeal.scatter_S100000x65_S1200000x1_S1200000x65_1_0_0_1 z65 idx upd (ix2 r c) = _
  rw [scatter65_eq, rowDims_scatterAdd, hz65, zero_add]

omit [Cert.KernelIdeal.Facts₀] in
/-- The 64-column scatter at a node and a column: the sum of that feature over the node's incoming edges. -/
theorem scatter64_apply (z64 : Cert.ReferenceIdeal.S100000x64.Idx → EReal) (hz64 : ∀ i, z64 i = 0)
    (idx : IVec Cert.KernelIdeal.S1200000x1 32) (g : Cert.KernelIdeal.S1200000x64.Idx → EReal) (r : Fin 100000) (k : Fin 64) :
    Host.scatterAdd (F := Ideal) (φ := .f32) Cert.ReferenceIdeal.scatter_S100000x64_S1200000x1_S1200000x64_1_0_0_1 z64 idx g
        (ix2 r k)
      = ∑ e : Fin 1200000, if (idx (ix2 e (0 : Fin 1))).toInt = (r.val : Int) then g (ix2 e k) else 0 := by
  show Ideal.hostScatterAdd Cert.ReferenceIdeal.scatter_S100000x64_S1200000x1_S1200000x64_1_0_0_1 z64 idx g (ix2 r k) = _
  rw [scatter64_eq, rowDims_scatterAdd, hz64, zero_add]

omit [Cert.KernelIdeal.Facts₀] in
/-- The scatter of a vector at a node: the sum of its entries over the node's incoming edges. -/
theorem scatter1_apply (z1 : Cert.ReferenceIdeal.S100000.Idx → EReal) (hz1 : ∀ i, z1 i = 0)
    (idx : IVec Cert.KernelIdeal.S1200000x1 32) (u : Cert.ReferenceIdeal.S1200000.Idx → EReal) (r : Fin 100000) :
    Host.scatterAdd (F := Ideal) (φ := .f32) Cert.ReferenceIdeal.scatter_S100000_S1200000x1_S1200000_n_0_0_1 z1 idx u (ix1 r)
      = ∑ e : Fin 1200000, if (idx (ix2 e (0 : Fin 1))).toInt = (r.val : Int) then u (ix1 e) else 0 := by
  show Ideal.hostScatterAdd Cert.ReferenceIdeal.scatter_S100000_S1200000x1_S1200000_n_0_0_1 z1 idx u (ix1 r) = _
  rw [scatter1_eq, vecDims_scatterAdd, hz1, zero_add]

/-- **The messages**: a feature column of the 65-column scatter of the concatenation is the 64-column scatter of the
    features. -/
theorem msg_eq (z65 : Cert.KernelIdeal.S100000x65.Idx → EReal) (z64 : Cert.ReferenceIdeal.S100000x64.Idx → EReal)
    (hz65 : ∀ i, z65 i = 0) (hz64 : ∀ i, z64 i = 0) (idx : IVec Cert.KernelIdeal.S1200000x1 32)
    (g : Cert.KernelIdeal.S1200000x64.Idx → EReal) (o : Cert.KernelIdeal.S1200000x1.Idx → EReal)
    (r : Fin 100000) (k : Fin 64) :
    Host.scatterAdd (F := Ideal) (φ := .f32) Cert.KernelIdeal.scatter_S100000x65_S1200000x1_S1200000x65_1_0_0_1 z65 idx
        (concatenate Cert.KernelIdeal.S1200000x65 1 [⟨Cert.KernelIdeal.S1200000x64, g⟩, ⟨Cert.KernelIdeal.S1200000x1, o⟩]
          Cert.KernelIdeal.Facts₀.concatenates_S1200000x64_S1200000x1_S1200000x65_d1)
        (ix2 r (⟨k.val, by omega⟩ : Fin 65))
      = Host.scatterAdd (F := Ideal) (φ := .f32) Cert.ReferenceIdeal.scatter_S100000x64_S1200000x1_S1200000x64_1_0_0_1 z64
          idx g (ix2 r k) := by
  rw [scatter65_apply z65 hz65, scatter64_apply z64 hz64]
  refine Finset.sum_congr rfl fun e _ => ?_
  rw [concat_feature]

/-- **The degrees**: when the last piece and the vector are one constant, column 64 of the 65-column scatter is the
    scatter of the vector. -/
theorem deg_eq (z65 : Cert.KernelIdeal.S100000x65.Idx → EReal) (hz65 : ∀ i, z65 i = 0)
    (idx : IVec Cert.KernelIdeal.S1200000x1 32)
    (g : Cert.KernelIdeal.S1200000x64.Idx → EReal) (o : Cert.KernelIdeal.S1200000x1.Idx → EReal)
    (z1 : Cert.ReferenceIdeal.S100000.Idx → EReal) (hz1 : ∀ i, z1 i = 0) (u : Cert.ReferenceIdeal.S1200000.Idx → EReal)
    (one : EReal) (ho : ∀ j, o j = one) (hu : ∀ e, u e = one) (r : Fin 100000) :
    Host.scatterAdd (F := Ideal) (φ := .f32) Cert.KernelIdeal.scatter_S100000x65_S1200000x1_S1200000x65_1_0_0_1 z65 idx
        (concatenate Cert.KernelIdeal.S1200000x65 1 [⟨Cert.KernelIdeal.S1200000x64, g⟩, ⟨Cert.KernelIdeal.S1200000x1, o⟩]
          Cert.KernelIdeal.Facts₀.concatenates_S1200000x64_S1200000x1_S1200000x65_d1)
        (ix2 r (⟨64, by omega⟩ : Fin 65))
      = Host.scatterAdd (F := Ideal) (φ := .f32) Cert.ReferenceIdeal.scatter_S100000_S1200000x1_S1200000_n_0_0_1 z1 idx u
          (ix1 r) := by
  rw [scatter65_apply z65 hz65, scatter1_apply z1 hz1]
  refine Finset.sum_congr rfl fun e _ => ?_
  rw [concat_last, ho, hu]

omit [Cert.KernelIdeal.Facts₀] in
/-- **The messages are real** when the features are: a finite sum of reals. -/
theorem msg_real (z64 : Cert.ReferenceIdeal.S100000x64.Idx → EReal) (hz64 : ∀ i, z64 i = 0)
    (idx : IVec Cert.KernelIdeal.S1200000x1 32) (g : Cert.KernelIdeal.S1200000x64.Idx → EReal)
    (hg : ∀ j, ∃ v : ℝ, g j = (v : EReal)) (r : Fin 100000) (k : Fin 64) :
    ∃ v : ℝ, Host.scatterAdd (F := Ideal) (φ := .f32) Cert.ReferenceIdeal.scatter_S100000x64_S1200000x1_S1200000x64_1_0_0_1
        z64 idx g (ix2 r k) = (v : EReal) := by
  rw [scatter64_apply z64 hz64]
  refine sum_real _ _ fun e _ => ?_
  split
  · exact hg _
  · exact ⟨0, by simp⟩

omit [Cert.KernelIdeal.Facts₀] in
/-- **The degrees are nonnegative reals** when the vector is all ones: a count. -/
theorem deg_real (z1 : Cert.ReferenceIdeal.S100000.Idx → EReal) (hz1 : ∀ i, z1 i = 0)
    (idx : IVec Cert.KernelIdeal.S1200000x1 32) (u : Cert.ReferenceIdeal.S1200000.Idx → EReal) (hu : ∀ e, u e = 1)
    (r : Fin 100000) :
    ∃ d : ℝ, 0 ≤ d ∧ Host.scatterAdd (F := Ideal) (φ := .f32) Cert.ReferenceIdeal.scatter_S100000_S1200000x1_S1200000_n_0_0_1
        z1 idx u (ix1 r) = (d : EReal) := by
  rw [scatter1_apply z1 hz1]
  refine sum_real_nonneg _ _ fun e _ => ?_
  split
  · exact ⟨1, zero_le_one, by rw [hu]; simp⟩
  · exact ⟨0, le_refl _, by simp⟩

end Main

end Cert.ScatterSum

end
-- ==== Proof.MessageBridge.lean ====
/-
  The kernel's summed messages and in-degrees are the reference's.

  The kernel scatter-adds, at each edge's destination, the source's 64 features with a one appended: 65 columns at once.
  The reference scatter-adds the 64 features and, separately, a vector of ones.  Both gather the same rows and scatter to
  the same destinations, both start from zero, and a scatter-add at the exact instance is, entry by entry, the sum over the
  edges that land there.  So columns 0..63 of the kernel's array are the reference's summed messages and column 64 is the
  reference's in-degree.  The in-degree is a sum of ones, a nonnegative real; a summed message is a finite sum of entries of
  x, real when every entry of x is.
-/
import proofs.«123687_j59407987638626_2_alg».proof.Proof.HostBefore
import proofs.«123687_j59407987638626_2_alg».proof.Proof.ScatterSum
import proofs.«123687_j59407987638626_2_alg».proof.Proof.Gen.KernelIdeal
import proofs.«123687_j59407987638626_2_alg».proof.Proof.Gen.ReferenceIdeal
import proofs.«123687_j59407987638626_2_alg».proof.Proof.Gen.ReferenceIdeal.Read
import proofs.«123687_j59407987638626_2_alg».proof.Proof.Consts
import proofs.«123687_j59407987638626_2_alg».proof.Proof.Spec

set_option maxRecDepth 16384

noncomputable section

namespace Cert.MessageBridge

open Idealize.ShloMosaic Idealize.ShloMosaic.ValueIdx
open Cert.ReferenceIdeal (Read.val_main_v9 Read.val_main_v10 Read.val_main_v11 Read.val_main_v12 Read.val_main_v13
  Read.val_main_v14 Read.val_main_v15 Read.val_main_v16 Read.val_main_v17)

/-- The kernel's zero array reads 0 everywhere. -/
theorem zero65 (i : Cert.KernelIdeal.S100000x65.Idx) :
    broadcastInDim Cert.KernelIdeal.S100000x65 ![] Cert.KernelIdeal.Gen.bcast_S_S100000x65
      (constant (F := Ideal) Cert.KernelIdeal.S_ .f32 0x00000000#32) i = 0 :=
  Cert.Consts.zeroLit_eq

/-- The reference's zero array of the messages reads 0 everywhere. -/
theorem zero64 (i : Cert.ReferenceIdeal.S100000x64.Idx) : Read.val_main_v11 (F := Ideal) i = 0 :=
  Cert.Consts.zeroLit_eq

/-- The reference's zero vector of the degrees reads 0 everywhere. -/
theorem zero1 (i : Cert.ReferenceIdeal.S100000.Idx) : Read.val_main_v15 (F := Ideal) i = 0 :=
  Cert.Consts.zeroLit_eq

/-- The reference's vector of ones reads 1 everywhere. -/
theorem ones (e : Cert.ReferenceIdeal.S1200000.Idx) : Read.val_main_v14 (F := Ideal) e = 1 :=
  Cert.Consts.oneLit_eq

/-- A gathered entry is an entry of the operand, so real when the operand is. -/
theorem gathered_real (x : FVec Ideal Cert.KernelIdeal.S100000x64 .f32) (ei : IVec Cert.KernelIdeal.S2x1200000 32)
    (hx : ∀ i, ∃ v : ℝ, x i = (v : EReal)) (j : Cert.KernelIdeal.S1200000x64.Idx) :
    ∃ v : ℝ, Cert.HostBefore.gathered (F := Ideal) x ei j = (v : EReal) :=
  hx _

/-- Columns 0..63 of the kernel's scatter are the reference's summed messages. -/
theorem msg_bridge (x : FVec Ideal Cert.KernelIdeal.S100000x64 .f32) (ei : IVec Cert.KernelIdeal.S2x1200000 32)
    (r : Fin 100000) (k : Fin 64) :
    Cert.HostBefore.msgArr (F := Ideal) x ei (ix2 r k) = Read.val_main_v13 (F := Ideal) x ei (ix2 r k) := by
  rw [Cert.HostBefore.msgArr_at]
  unfold Cert.HostBefore.scattered Cert.ReferenceIdeal.Read.val_main_v13
  rw [← Cert.HostBefore.gathered_eq_ref x ei, ← Cert.HostBefore.dstIdx_eq_ref (F := Ideal) ei]
  generalize Cert.HostBefore.gathered (F := Ideal) x ei = g
  generalize Cert.HostBefore.dstIdx ei = idx
  exact Cert.ScatterSum.msg_eq _ _ zero65 zero64 idx g _ r k

/-- Column 64 of the kernel's scatter is the reference's in-degree. -/
theorem deg_bridge (x : FVec Ideal Cert.KernelIdeal.S100000x64 .f32) (ei : IVec Cert.KernelIdeal.S2x1200000 32)
    (r : Fin 100000) :
    Cert.HostBefore.scattered (F := Ideal) x ei (ix2 r (⟨64, by omega⟩ : Fin 65)) = Read.val_main_v17 (F := Ideal) ei (ix1 r) := by
  unfold Cert.HostBefore.scattered Cert.ReferenceIdeal.Read.val_main_v17
  rw [show Read.val_main_v16 (F := Ideal) ei = Cert.HostBefore.dstIdx ei from rfl]
  generalize Cert.HostBefore.gathered (F := Ideal) x ei = g
  generalize Cert.HostBefore.dstIdx ei = idx
  exact Cert.ScatterSum.deg_eq _ zero65 idx g _ _ zero1 (Read.val_main_v14 (F := Ideal)) Cert.Spec.oneLit (fun _ => rfl)
    (fun _ => rfl) r

/-- The reference's summed messages are real when the features are. -/
theorem msg_real (x : FVec Ideal Cert.KernelIdeal.S100000x64 .f32) (ei : IVec Cert.KernelIdeal.S2x1200000 32)
    (hx : ∀ i, ∃ v : ℝ, x i = (v : EReal)) : ∀ i, ∃ v : ℝ, Read.val_main_v13 (F := Ideal) x ei i = (v : EReal) := by
  intro i
  obtain ⟨r, k, rfl⟩ : ∃ (r : Fin 100000) (k : Fin 64), i = ix2 r k := ⟨i 0, i 1, eq_ix2 i⟩
  unfold Cert.ReferenceIdeal.Read.val_main_v13
  rw [← Cert.HostBefore.gathered_eq_ref x ei, ← Cert.HostBefore.dstIdx_eq_ref (F := Ideal) ei]
  have hg := gathered_real x ei hx
  revert hg
  generalize Cert.HostBefore.gathered (F := Ideal) x ei = g
  generalize Cert.HostBefore.dstIdx ei = idx
  intro hg
  exact Cert.ScatterSum.msg_real _ zero64 idx g hg r k

/-- The reference's in-degrees are nonnegative reals. -/
theorem deg_real (ei : IVec Cert.KernelIdeal.S2x1200000 32) :
    ∀ i, ∃ v : ℝ, 0 ≤ v ∧ Read.val_main_v17 (F := Ideal) ei i = (v : EReal) := by
  intro i
  obtain ⟨r, rfl⟩ : ∃ r : Fin 100000, i = ix1 r := ⟨i 0, eq_ix1 i⟩
  unfold Cert.ReferenceIdeal.Read.val_main_v17
  generalize Read.val_main_v16 (F := Ideal) ei = idx
  exact Cert.ScatterSum.deg_real _ zero1 idx _ ones r

end Cert.MessageBridge

end
-- ==== Proof.KernelValue.lean ====
/-
  The idealized kernel's result as one function of its arguments.

  Walked back through the four segments the result is the gate array of: the linear stage's array
  (the first launch's output, a function of the root features, the summed messages, the inverse
  degrees, the transposed weights and the bias row), the scale and shift rows made from the
  per-block statistics, and the gate matrix.  Read at an index that is the gate of the block-wise
  batch normalisation of the kernel's linear stage.  The kernel's linear stage is the
  specification's: its summed messages and in-degrees are the reference's two scatter-adds, its
  product with the reciprocal of the clipped degree the reference's quotient, its weights the
  transpose.  With finite inputs the linear stage is real-valued, so the block-wise normalisation is
  the specification's, and the two gates are one expression.
-/
import proofs.«123687_j59407987638626_2_alg».proof.Proof.KernelFold
import proofs.«123687_j59407987638626_2_alg».proof.Proof.KernelStatsArray
import proofs.«123687_j59407987638626_2_alg».proof.Proof.GateRead
import proofs.«123687_j59407987638626_2_alg».proof.Proof.Bridge
import proofs.«123687_j59407987638626_2_alg».proof.Proof.MessageBridge
import proofs.«123687_j59407987638626_2_alg».proof.Proof.Spec
import proofs.«123687_j59407987638626_2_alg».proof.Proof.Gen.ReferenceIdeal.Read

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Cert.HostBefore Cert.HostBetween

variable (m : (ℓ : Loc nD τ sig) → Buf (Elt Ideal) ℓ) (ρ : Dev nD → PrngReg)

/-- The kernel's linear stage, on finite data or not, is the specification's: same messages, same degrees,
    the reciprocal of the clipped degree for the quotient, the weights transposed, the bias as a row. -/
theorem lin_eq_spec (x : FVec Ideal S100000x64 .f32) (ei : IVec S2x1200000 32) (W : FVec Ideal S64x64 .f32) (b : FVec Ideal S64 .f32)
    (r : Fin 100000) (c : Fin 64) :
    linArr x (msgArr (F := Ideal) x ei) (invDegCol (F := Ideal) x ei) (wT (F := Ideal) W) (bRow (F := Ideal) b) r c
      = Cert.Spec.lin (Cert.Spec.combine x (Cert.ReferenceIdeal.Read.val_main_v13 (F := Ideal) x ei) (Cert.ReferenceIdeal.Read.val_main_v17 (F := Ideal) ei)) W b r c := by
  unfold linArr
  exact Cert.Bridge.lin_bridge x (Cert.ReferenceIdeal.Read.val_main_v13 (F := Ideal) x ei) (Cert.ReferenceIdeal.Read.val_main_v17 (F := Ideal) ei) W b
    (msgArr (F := Ideal) x ei) (invDegCol (F := Ideal) x ei) (wT (F := Ideal) W) (bRow (F := Ideal) b)
    (fun r k => Cert.MessageBridge.msg_bridge x ei r k)
    (fun r => (invDegCol_at x ei r).trans (by rw [Cert.MessageBridge.deg_bridge x ei r]))
    (fun k c => wT_at W k c)
    (fun c => bRow_at b c)
    (fun r => Cert.MessageBridge.deg_real ei (ix1 r)) r c

/-- THE RESULT: under finite inputs the result buffer ends at the layer `Spec.G` of the arguments. -/
theorem kernel_value (c : Dev nD)
    (h0 : ∀ i, ∃ v : ℝ, (m ((c : Thread nD τ).loc main_arg0) : S100000x64.Idx → EReal) i = (v : EReal))
    (h2 : ∀ i, ∃ v : ℝ, (m ((c : Thread nD τ).loc main_arg2) : S64x64.Idx → EReal) i = (v : EReal))
    (h3 : ∀ i, ∃ v : ℝ, (m ((c : Thread nD τ).loc main_arg3) : S64.Idx → EReal) i = (v : EReal))
    (h4 : ∀ i, ∃ v : ℝ, (m ((c : Thread nD τ).loc main_arg4) : S64.Idx → EReal) i = (v : EReal))
    (h5 : ∀ i, ∃ v : ℝ, (m ((c : Thread nD τ).loc main_arg5) : S64.Idx → EReal) i = (v : EReal))
    (h6 : ∀ i, ∃ v : ℝ, (m ((c : Thread nD τ).loc main_arg6) : S64x64.Idx → EReal) i = (v : EReal)) :
    W4 m ρ c (Proc.devRef .tc main_v49)
      = Cert.Spec.G (m ((c : Thread nD τ).loc main_arg0))
          (Cert.ReferenceIdeal.Read.val_main_v13 (F := Ideal) (m ((c : Thread nD τ).loc main_arg0)) (m ((c : Thread nD τ).loc main_arg1)))
          (Cert.ReferenceIdeal.Read.val_main_v17 (F := Ideal) (m ((c : Thread nD τ).loc main_arg1)))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [result_fold m ρ c, final6 (V1 m ρ) c, entry0_arg0, entry0_msg, entry0_invDeg, entry0_wT, entry0_bRow]
  generalize m ((c : Thread nD τ).loc main_arg0) = x at h0 ⊢
  generalize m ((c : Thread nD τ).loc main_arg1) = ei
  generalize m ((c : Thread nD τ).loc main_arg2) = W at h2 ⊢
  generalize m ((c : Thread nD τ).loc main_arg3) = b at h3 ⊢
  generalize m ((c : Thread nD τ).loc main_arg4) = γ at h4 ⊢
  generalize m ((c : Thread nD τ).loc main_arg5) = β at h5 ⊢
  generalize m ((c : Thread nD τ).loc main_arg6) = C at h6 ⊢
  funext i
  obtain ⟨r, c', rfl⟩ : ∃ (r : Fin 100000) (c' : Fin 64), i = ix2 r c' := ⟨i 0, i 1, eq_ix2 i⟩
  show gateArr _ _ _ _ r c' = Cert.Spec.gated (Cert.Spec.bn (Cert.Spec.lin (Cert.Spec.combine x _ _) W b) γ β) C r c'
  rw [gate_read (fun r c => linArr x (msgArr (F := Ideal) x ei) (invDegCol (F := Ideal) x ei) (wT (F := Ideal) W) (bRow (F := Ideal) b) r c)
      _ (fun _ _ => rfl) _
      (fun t c => G6_sum x (msgArr (F := Ideal) x ei) (invDegCol (F := Ideal) x ei) (wT (F := Ideal) W) (bRow (F := Ideal) b) t c)
      (fun t c => G6_sq x (msgArr (F := Ideal) x ei) (invDegCol (F := Ideal) x ei) (wT (F := Ideal) W) (bRow (F := Ideal) b) t c)
      γ β C r c']
  rw [show (fun r c => linArr x (msgArr (F := Ideal) x ei) (invDegCol (F := Ideal) x ei) (wT (F := Ideal) W) (bRow (F := Ideal) b) r c)
        = Cert.Spec.lin (Cert.Spec.combine x (Cert.ReferenceIdeal.Read.val_main_v13 (F := Ideal) x ei) (Cert.ReferenceIdeal.Read.val_main_v17 (F := Ideal) ei)) W b
      from funext fun r => funext fun c => lin_eq_spec x ei W b r c]
  exact Cert.Bridge.gated_bridge _ γ β C
    (fun r c => Cert.Bridge.layer_real x _ _ W b h0 (Cert.MessageBridge.msg_real x ei h0) (Cert.MessageBridge.deg_real ei) h2 h3 r c)
    (fun c => h4 (ix1 c)) (fun c => h5 (ix1 c)) r c'

end Cert.KernelIdeal.Hand

end
-- ==== Proof.RefIsG.lean ====
/-
  The reference program computes the layer `Spec.G`.

  The reference is a straight line of host operations.  Its stages up to the two scatter-adds (the summed
  incoming messages `M` and the in-degrees `Dg`) are left as they are; every later stage is read at an index
  `(r, c)` and identified with the matching part of `Spec.G`:
    the divide by the clamped degree and the add of the root feature with `Spec.combine`,
    the contraction with the transposed weight and the bias with `Spec.lin`,
    the two row sums over the `100000` rows, each divided by the row count, with `Spec.mean` and `Spec.var`,
    the centring, the inverse square root, the scale and the shift with `Spec.bn`,
    the second contraction, negation, exponential, `1 + ·`, reciprocal and product with `Spec.gated`.
  Every step is an unfolding: at the ideal instance each operation is the extended reals' own, and the
  layout operations (broadcasts, the transpose) only re-index.
-/
import proofs.«123687_j59407987638626_2_alg».proof.Proof.Gen.ReferenceIdeal.Read
import proofs.«123687_j59407987638626_2_alg».proof.Proof.Spec

noncomputable section

namespace Cert.RefIsG

open Idealize.ShloMosaic Idealize.ShloMosaic.ValueIdx Cert.ReferenceIdeal Cert.Spec

/-- The node features' type: an `N × D` array of extended reals. -/
abbrev TNxD := (⟨S100000x64, .f32⟩ : BufTy).Contents (Elt Ideal)
/-- The edge list's type. -/
abbrev TE := (⟨S2x1200000, .i32⟩ : BufTy).Contents (Elt Ideal)
/-- A `D × D` matrix's type. -/
abbrev TDxD := (⟨S64x64, .f32⟩ : BufTy).Contents (Elt Ideal)
/-- A length-`D` vector's type. -/
abbrev TD := (⟨S64, .f32⟩ : BufTy).Contents (Elt Ideal)

/-! ## The mean message and the linear stage -/

/-- The broadcast clamped degree at `(r, c)` is `max(Dg[r], 1)`. -/
theorem v21_at (x1 : TE) (r : Fin 100000) (c : Fin 64) :
    Read.val_main_v21 (F := Ideal) x1 (ix2 r c) = max (Read.val_main_v17 (F := Ideal) x1 (ix1 r)) oneLit := by
  rw [Read.val_main_v21_apply, Read.val_main_v20_apply, Read.val_main_v19_apply, Read.val_main_v18_apply,
    Read.val_main_cst_3_apply]
  have e : Read.idx_main_v20 (Read.idx_main_v21 (ix2 r c)) = ix1 r :=
    funext fun a => Fin.ext (by match a with | ⟨0, _⟩ => rfl)
  rw [e]
  rfl

/-- The root feature plus the mean message, at `(r, k)`. -/
theorem v23_at (x0 : TNxD) (x1 : TE) (r : Fin 100000) (k : Fin 64) :
    Read.val_main_v23 (F := Ideal) x0 x1 (ix2 r k)
      = combine x0 (Read.val_main_v13 (F := Ideal) x0 x1) (Read.val_main_v17 (F := Ideal) x1) r k := by
  rw [Read.val_main_v23_apply, Read.val_main_v22_apply, v21_at]
  rfl

/-- The linear stage at `(r, c)`: the combined row through the transposed weight, plus the bias. -/
theorem v28_at (x0 : TNxD) (x1 : TE) (x2 : TDxD) (x3 : TD) (r : Fin 100000) (c : Fin 64) :
    Read.val_main_v28 (F := Ideal) x0 x1 x2 x3 (ix2 r c)
      = lin (combine x0 (Read.val_main_v13 (F := Ideal) x0 x1) (Read.val_main_v17 (F := Ideal) x1)) x2 x3 r c := by
  rw [Read.val_main_v28_apply, Read.val_main_v25_apply, Read.val_main_v27_apply, Read.val_main_v26_apply]
  have el : ∀ k : Fin 64, Read.lidx_main_v25 (ix2 r c) k = ix2 r k := fun k =>
    funext fun a => Fin.ext (by match a with | ⟨0, _⟩ => rfl | ⟨1, _⟩ => rfl)
  have er : ∀ k : Fin 64, Read.idx_main_v24 (Read.ridx_main_v25 (ix2 r c) k) = ix2 c k := fun k =>
    funext fun a => Fin.ext (by match a with | ⟨0, _⟩ => rfl | ⟨1, _⟩ => rfl)
  have eb : Read.idx_main_v26 (Read.idx_main_v27 (ix2 r c)) = ix1 c :=
    funext fun a => Fin.ext (by match a with | ⟨0, _⟩ => rfl)
  rw [eb]
  unfold lin
  rw [Ideal.addf_def]
  refine congrArg (· + x3 (ix1 c)) (Finset.sum_congr rfl fun k _ => ?_)
  rw [el k, v23_at, Read.val_main_v24_apply, er k]

/-! ## The column statistics and the normalisation, over the linear stage read as `h` -/

section Stats
variable (x0 : TNxD) (x1 : TE) (x2 : TDxD) (x3 : TD) (h : Fin 100000 → Fin 64 → EReal)
  (hh : ∀ (r : Fin 100000) (c : Fin 64), Read.val_main_v28 (F := Ideal) x0 x1 x2 x3 (ix2 r c) = h r c)
include hh

/-- A column's sum over the rows, divided by the row count, is `Spec.mean`. -/
theorem v31_at (c : Fin 64) : Read.val_main_v31 (F := Ideal) x0 x1 x2 x3 (ix1 c) = mean h c := by
  rw [Read.val_main_v31_apply, Read.val_main_v29_apply, Read.val_main_cst_4_apply, Read.val_main_v30_apply,
    Read.val_main_cst_5_apply]
  have e : ∀ k : Fin 100000, Read.idx_main_v29 (ix1 c) k = ix2 k c := fun k =>
    funext fun a => Fin.ext (by match a with | ⟨0, _⟩ => rfl | ⟨1, _⟩ => rfl)
  unfold mean
  rw [Ideal.hostDivf_def, Ideal.ofBits_def, Ideal.ofBits_def]
  refine congrArg (fun s => Ideal.div (zeroLit + s) nLit) (Finset.sum_congr rfl fun k _ => ?_)
  rw [e k, hh]

/-- The mean broadcast over the rows (first copy). -/
theorem v33_at (r : Fin 100000) (c : Fin 64) : Read.val_main_v33 (F := Ideal) x0 x1 x2 x3 (ix2 r c) = mean h c := by
  rw [Read.val_main_v33_apply, Read.val_main_v32_apply]
  have e : Read.idx_main_v32 (Read.idx_main_v33 (ix2 r c)) = ix1 c :=
    funext fun a => Fin.ext (by match a with | ⟨0, _⟩ => rfl)
  rw [e, v31_at x0 x1 x2 x3 h hh]

/-- The mean broadcast over the rows (second copy). -/
theorem v40_at (r : Fin 100000) (c : Fin 64) : Read.val_main_v40 (F := Ideal) x0 x1 x2 x3 (ix2 r c) = mean h c := by
  rw [Read.val_main_v40_apply, Read.val_main_v39_apply]
  have e : Read.idx_main_v39 (Read.idx_main_v40 (ix2 r c)) = ix1 c :=
    funext fun a => Fin.ext (by match a with | ⟨0, _⟩ => rfl)
  rw [e, v31_at x0 x1 x2 x3 h hh]

/-- A column's summed squared deviation, divided by the row count, is `Spec.var`. -/
theorem v38_at (c : Fin 64) : Read.val_main_v38 (F := Ideal) x0 x1 x2 x3 (ix1 c) = var h c := by
  rw [Read.val_main_v38_apply, Read.val_main_v36_apply, Read.val_main_cst_6_apply, Read.val_main_v37_apply,
    Read.val_main_cst_7_apply]
  have e : ∀ k : Fin 100000, Read.idx_main_v36 (ix1 c) k = ix2 k c := fun k =>
    funext fun a => Fin.ext (by match a with | ⟨0, _⟩ => rfl | ⟨1, _⟩ => rfl)
  unfold var
  rw [Ideal.hostDivf_def, Ideal.ofBits_def, Ideal.ofBits_def]
  refine congrArg (fun s => Ideal.div (zeroLit + s) nLit) (Finset.sum_congr rfl fun k _ => ?_)
  rw [e k, Read.val_main_v35_apply, Read.val_main_v34_apply, hh, v33_at x0 x1 x2 x3 h hh]
  rfl

/-- The inverse standard deviation broadcast over the rows. -/
theorem v46_at (r : Fin 100000) (c : Fin 64) :
    Read.val_main_v46 (F := Ideal) x0 x1 x2 x3 (ix2 r c) = Ideal.rsqrt (var h c + epsLit) := by
  rw [Read.val_main_v46_apply, Read.val_main_v45_apply]
  have e : Read.idx_main_v45 (Read.idx_main_v46 (ix2 r c)) = ix1 c :=
    funext fun a => Fin.ext (by match a with | ⟨0, _⟩ => rfl)
  rw [e, Read.val_main_v44_apply, Read.val_main_v43_apply, v38_at x0 x1 x2 x3 h hh, Read.val_main_v42_apply,
    Read.val_main_cst_8_apply]
  rfl

/-- The normalised stage at `(r, c)` is `Spec.bn`. -/
theorem v53_at (x4 x5 : TD) (r : Fin 100000) (c : Fin 64) :
    Read.val_main_v53 (F := Ideal) x0 x1 x2 x3 x4 x5 (ix2 r c) = bn h x4 x5 r c := by
  rw [Read.val_main_v53_apply, Read.val_main_v50_apply, Read.val_main_v47_apply, Read.val_main_v41_apply, hh,
    v40_at x0 x1 x2 x3 h hh, v46_at x0 x1 x2 x3 h hh, Read.val_main_v49_apply, Read.val_main_v48_apply,
    Read.val_main_v52_apply, Read.val_main_v51_apply]
  have e4 : Read.idx_main_v48 (Read.idx_main_v49 (ix2 r c)) = ix1 c :=
    funext fun a => Fin.ext (by match a with | ⟨0, _⟩ => rfl)
  have e5 : Read.idx_main_v51 (Read.idx_main_v52 (ix2 r c)) = ix1 c :=
    funext fun a => Fin.ext (by match a with | ⟨0, _⟩ => rfl)
  rw [e4, e5]
  rfl

end Stats

/-! ## The gate, over the normalised stage read as `y` -/

/-- The gated stage at `(r, c)` is `Spec.gated`. -/
theorem v61_at (x0 : TNxD) (x1 : TE) (x2 : TDxD) (x3 x4 x5 : TD) (x6 : TDxD) (y : Fin 100000 → Fin 64 → EReal)
    (hy : ∀ (r : Fin 100000) (c : Fin 64), Read.val_main_v53 (F := Ideal) x0 x1 x2 x3 x4 x5 (ix2 r c) = y r c)
    (r : Fin 100000) (c : Fin 64) :
    Read.val_main_v61 (F := Ideal) x0 x1 x2 x3 x4 x5 x6 (ix2 r c) = gated y x6 r c := by
  rw [Read.val_main_v61_apply, Read.val_main_v60_apply, Read.val_main_v59_apply, Read.val_main_cst_10_apply,
    Read.val_main_v58_apply, Read.val_main_v57_apply, Read.val_main_cst_9_apply, Read.val_main_v56_apply,
    Read.val_main_v55_apply, Read.val_main_v54_apply, hy]
  have el : ∀ k : Fin 64, Read.lidx_main_v54 (ix2 r c) k = ix2 r k := fun k =>
    funext fun a => Fin.ext (by match a with | ⟨0, _⟩ => rfl | ⟨1, _⟩ => rfl)
  have er : ∀ k : Fin 64, Read.ridx_main_v54 (ix2 r c) k = ix2 k c := fun k =>
    funext fun a => Fin.ext (by match a with | ⟨0, _⟩ => rfl | ⟨1, _⟩ => rfl)
  have es : (∑ k : Fin 64, Read.val_main_v53 (F := Ideal) x0 x1 x2 x3 x4 x5 (Read.lidx_main_v54 (ix2 r c) k)
        * x6 (Read.ridx_main_v54 (ix2 r c) k)) = ∑ k : Fin 64, y r k * x6 (ix2 k c) :=
    Finset.sum_congr rfl fun k _ => by rw [el k, er k, hy]
  rw [es]
  rfl

/-! ## The whole reference -/

/-- The reference's result is the layer `Spec.G` of the node features, the summed messages, the in-degrees
    and the parameters. -/
theorem ref_eq (x0 : TNxD) (x1 : TE) (x2 : TDxD) (x3 x4 x5 : TD) (x6 : TDxD) :
    Read.val_main_v61 (F := Ideal) x0 x1 x2 x3 x4 x5 x6
      = G x0 (Read.val_main_v13 (F := Ideal) x0 x1) (Read.val_main_v17 (F := Ideal) x1) x2 x3 x4 x5 x6 := by
  funext i
  obtain ⟨r, c, rfl⟩ : ∃ (r : Fin 100000) (c : Fin 64), i = ix2 r c := ⟨i 0, i 1, eq_ix2 i⟩
  rw [v61_at x0 x1 x2 x3 x4 x5 x6 _ (fun r c => v53_at x0 x1 x2 x3 _ (fun r c => v28_at x0 x1 x2 x3 r c) x4 x5 r c)]
  rfl

end Cert.RefIsG

end
-- ==== Proof.FiniteInputs.lean ====
/-
  The precondition, read back.

  The certificate's precondition states, for each of the six float arrays, that |x| < +∞ at every entry: the
  comparisons are folded by "and" over each array, and the six results joined by "and" into one bit, which is 1.
  On the extended reals |x| = max x (-x), and max x (-x) < ⊤ excludes both x = ⊤ and x = ⊥; so every entry of every
  float array is a real number.
-/
import proofs.«123687_j59407987638626_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx Cert.Pre_finite_inputs

/-- The scalar shape has one index. -/
instance : Subsingleton S_.Idx := ⟨fun a b => funext fun d => d.elim0⟩

/-- An extended real whose absolute value max x (-x) lies strictly below +∞ is a real number. -/
theorem real_of_abs_lt_top (x : EReal) (h : max x (-x) < ⊤) : ∃ v : ℝ, x = (v : EReal) := by
  induction x using EReal.rec with
  | bot => exact absurd h (by simp)
  | coe v => exact ⟨v, rfl⟩
  | top => exact absurd h (by simp)

/-- The pattern 0x7F800000 denotes +∞. -/
theorem inf_lit : Ideal.ofBits .f32 0x7F800000#32 = (⊤ : EReal) := by simp [Ideal.ofBits, Ideal.ieee]

/-- The element fact: the bit of |x| < +∞ being 1 makes x a real number. -/
theorem real_of_bit (x : EReal) (h : Ideal.cmp .olt (max x (-x)) (Ideal.ofBits .f32 0x7F800000#32) = 1#1) :
    ∃ v : ℝ, x = (v : EReal) := by
  rw [inf_lit] at h
  apply real_of_abs_lt_top
  by_contra hn
  have : Ideal.cmp .olt (max x (-x)) ⊤ = 0#1 := by
    unfold Ideal.cmp
    simp only [decide_eq_false hn]
    rfl
  rw [this] at h
  exact absurd h (by decide)

/-- One array: if the fold by "and" of the bits |a i| < +∞ over all of a is 1, every entry of a is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ix0 = 1#1) :
    ∀ i, ∃ v : ℝ, a i = (v : EReal) := by
  intro i
  have hi := Host.reduce_andi_all _ _ hr hu ix0 e i
  exact real_of_bit (a i) hi

variable [Facts]

/-- From the precondition, each float array is real-valued. -/
theorem finite_of_pre (a0 : FVec Ideal S100000x64 .f32) (a1 : IVec S2x1200000 32) (a2 : FVec Ideal S64x64 .f32)
    (a3 a4 a5 : FVec Ideal S64 .f32) (a6 : FVec Ideal S64x64 .f32)
    (h : Cert.Pre_finite_inputs.fn (F := Ideal) a0 a1 a2 a3 a4 a5 a6 = fun _ => 1#1) :
    (∀ i, ∃ v : ℝ, a0 i = (v : EReal)) ∧ (∀ i, ∃ v : ℝ, a2 i = (v : EReal)) ∧ (∀ i, ∃ v : ℝ, a3 i = (v : EReal)) ∧
      (∀ i, ∃ v : ℝ, a4 i = (v : EReal)) ∧ (∀ i, ∃ v : ℝ, a5 i = (v : EReal)) ∧ (∀ i, ∃ v : ℝ, a6 i = (v : EReal)) := by
  have e := congrFun h ix0
  dsimp only [fn, fn_part1] at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨all_real a0 _ _ _ h0, all_real a2 _ _ _ h2, all_real a3 _ _ _ h3, all_real a4 _ _ _ h4, all_real a5 _ _ _ h5,
    all_real a6 _ _ _ h6⟩

end Cert.FiniteInputs

end
-- ==== Proof.lean ====
/-
  A graph layer — the mean of each node's incoming messages added to its own features, a linear
  map, batch normalisation over the nodes, a logistic gate — computed two ways and shown equal on
  the extended reals whenever the float inputs are finite.

  The reference is one straight line of array operations.  The kernel gathers and scatter-adds once
  (the features with a column of ones appended, so that the messages' sum and the in-degree come out
  of one pass), multiplies by the reciprocal of the clipped degree where the reference divides, runs
  the linear map block by block (25 blocks of 4000 nodes) and emits each block's column sums and sums
  of squares, folds those into one scale and one shift per column — the variance taken as the mean
  of the squares less the squared mean —, and normalises and gates block by block.

  Why the two agree.  A scatter-add is an exact sum here, so one pass over 65 columns is the two
  passes of the reference.  The in-degree is a nonnegative real, so multiplying by 1/max(deg, 1) is
  dividing by max(deg, 1).  A change of float format is the identity and a matrix product into a
  zero accumulator is the plain sum of products.  Finite inputs make every entry of the linear stage
  a real number; for real numbers Σ(h − μ)²/N = Σh²/N − μ², sums may be taken block by block, and
  (h − μ)·s·γ + β = h·(γ·s) + (β − μ·γ·s), the inverse deviation s being real because the variance
  is nonnegative and ε positive.  The gate is the same expression 1/(1 + e^(−z)) on both sides.

  The three frames are the generated ones (the reference's is its run with the result dropped);
  the idealization rewrote nothing.
-/
import proofs.«123687_j59407987638626_2_alg».proof.Defs
import proofs.«123687_j59407987638626_2_alg».proof.Proof.Gen.Kernel
import proofs.«123687_j59407987638626_2_alg».proof.Proof.Gen.Kernel.Skeleton
import proofs.«123687_j59407987638626_2_alg».proof.Proof.Gen.Kernel.Launch
import proofs.«123687_j59407987638626_2_alg».proof.Proof.Gen.Kernel.Points
import proofs.«123687_j59407987638626_2_alg».proof.Proof.Gen.Kernel.Frame
import proofs.«123687_j59407987638626_2_alg».proof.Proof.Gen.KernelIdeal
import proofs.«123687_j59407987638626_2_alg».proof.Proof.Gen.KernelIdeal.Skeleton
import proofs.«123687_j59407987638626_2_alg».proof.Proof.Gen.KernelIdeal.Launch
import proofs.«123687_j59407987638626_2_alg».proof.Proof.Gen.KernelIdeal.Points
import proofs.«123687_j59407987638626_2_alg».proof.Proof.Gen.KernelIdeal.Frame
import proofs.«123687_j59407987638626_2_alg».proof.Proof.Gen.ReferenceIdeal
import proofs.«123687_j59407987638626_2_alg».proof.Proof.Gen.ReferenceIdeal.Run
import proofs.«123687_j59407987638626_2_alg».proof.Proof.Gen.ReferenceIdeal.Read
import proofs.«123687_j59407987638626_2_alg».proof.Proof.Gen.Pre_finite_inputs
import proofs.«123687_j59407987638626_2_alg».proof.Proof.KernelRun
import proofs.«123687_j59407987638626_2_alg».proof.Proof.KernelValue
import proofs.«123687_j59407987638626_2_alg».proof.Proof.RefIsG
import proofs.«123687_j59407987638626_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the layer `Spec.G` of the arguments: the kernel's by its value run and
    the finiteness the precondition gives, the reference's by its run read one operation at a time. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.ReferenceIdeal.Read.val_main_v17 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Hand.run_out (F := Ideal) m ρ)
    obtain ⟨f0, f2, f3, f4, f5, f6⟩ := Cert.FiniteInputs.finite_of_pre _ _ _ _ _ _ _ (hpre c)
    exact Cert.KernelIdeal.Hand.kernel_value m ρ c f0 f2 f3 f4 f5 f6
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v61_eq, Cert.RefIsG.ref_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
